-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S3073x1024 : Shape := ⟨2, ![3073, 1024]⟩
abbrev S3073 : Shape := ⟨1, ![3073]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S3073x1024 : S_.BroadcastsInDim S3073x1024 (![] : Fin 0 → Fin S3073x1024.rank)
  reducesTo_S3073x1024_S_d0_1 : S3073x1024.ReducesTo [0, 1] S_
  bcast_S_S3073 : S_.BroadcastsInDim S3073 (![] : Fin 0 → Fin S3073.rank)
  reducesTo_S3073_S_d0 : S3073.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16384x1024 .f32) (main_arg1 : FVec F S3073x1024 .f32) (main_arg2 : FVec F S3073 .f32) (main_arg3 : FVec F S1024x1024 .f32) (main_arg4 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S3073x1024 .f32 := Host.absf main_arg1
  let main_cst_0 : FVec F S_ .f32 := constant S_ .f32 0x7F800000#32
  let main_v5 : FVec F S3073x1024 .f32 := broadcastInDim S3073x1024 ![] bcast_S_S3073x1024 main_cst_0
  let main_v6 : IVec S3073x1024 1 := cmpf .olt main_v4 main_v5
  let main_c_1 : IVec S_ 1 := constantI S_ 1 1#1
  let main_v7 : IVec S_ 1 := (fun x v => Host.reduce IntOp.andi x v reducesTo_S3073x1024_S_d0_1 h_S_) main_v6 main_c_1
  let main_v8 : IVec S_ 1 := andi main_v3 main_v7
  let main_v9 : FVec F S3073 .f32 := Host.absf main_arg2
  let main_cst_2 : FVec F S_ .f32 := constant S_ .f32 0x7F800000#32
  let main_v10 : FVec F S3073 .f32 := broadcastInDim S3073 ![] bcast_S_S3073 main_cst_2
  let main_v11 : IVec S3073 1 := cmpf .olt main_v9 main_v10
  let main_c_3 : IVec S_ 1 := constantI S_ 1 1#1
  let main_v12 : IVec S_ 1 := (fun x v => Host.reduce IntOp.andi x v reducesTo_S3073_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S16384x1024 : Shape := ⟨2, ![16384, 1024]⟩
abbrev S3073x1024 : Shape := ⟨2, ![3073, 1024]⟩
abbrev S3073 : Shape := ⟨1, ![3073]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S_ : Shape := ⟨0, ![]⟩
abbrev S127x1024 : Shape := ⟨2, ![127, 1024]⟩
abbrev S128x1024 : Shape := ⟨2, ![128, 1024]⟩
abbrev S127 : Shape := ⟨1, ![127]⟩
abbrev S128 : Shape := ⟨1, ![128]⟩
abbrev S1024x128 : Shape := ⟨2, ![1024, 128]⟩
abbrev S2x1024x1024 : Shape := ⟨3, ![2, 1024, 1024]⟩
abbrev S256x1024 : Shape := ⟨2, ![256, 1024]⟩
abbrev S1x1024x1024 : Shape := ⟨3, ![1, 1024, 1024]⟩
abbrev S256x128 : Shape := ⟨2, ![256, 128]⟩
abbrev S1x128 : Shape := ⟨2, ![1, 128]⟩
abbrev S256x1 : Shape := ⟨2, ![256, 1]⟩
abbrev S256 : Shape := ⟨1, ![256]⟩
abbrev S512x1024 : Shape := ⟨2, ![512, 1024]⟩

abbrev nBuf : Space → Nat
  | .hbm => 37
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S3073x1024, .f32⟩
  | .hbm, ⟨2, _⟩ => ⟨S3073, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1, .f32⟩
  | .hbm, ⟨13, _⟩ => ⟨S_, .f32⟩
  | .hbm, ⟨14, _⟩ => ⟨S127x1024, .f32⟩
  | .hbm, ⟨15, _⟩ => ⟨S128x1024, .f32⟩
  | .hbm, ⟨16, _⟩ => ⟨S_, .f32⟩
  | .hbm, ⟨17, _⟩ => ⟨S127, .f32⟩
  | .hbm, ⟨18, _⟩ => ⟨S128, .f32⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1024x128, .f32⟩
  | .hbm, ⟨26, _⟩ => ⟨S1024x128, .bf16⟩
  | .hbm, ⟨27, _⟩ => ⟨S1024x1024, .f32⟩
  | .hbm, ⟨28, _⟩ => ⟨S1024x1024, .bf16⟩
  | .hbm, ⟨29, _⟩ => ⟨S2x1024x1024, .f32⟩
  | .hbm, ⟨30, _⟩ => ⟨S16384x1024, .bf16⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .bf16⟩
  | .hbm, ⟨36, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S128, .f32⟩
  | .local _ .vmem, ⟨10, _⟩ => ⟨S1024x1024, .bf16⟩
  | .local _ .vmem, ⟨11, _⟩ => ⟨S1024, .f32⟩
  | .local _ .vmem, ⟨12, _⟩ => ⟨S1x1024x1024, .f32⟩
  | .local _ .vmem, ⟨13, _⟩ => ⟨S1x1024x1024, .f32⟩
  | .local _ .vmem, ⟨14, _⟩ => ⟨S256x1024, .bf16⟩
  | .local _ .vmem, ⟨15, _⟩ => ⟨S256x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1024, .f32⟩
  | .local _ .vmem, ⟨20, _⟩ => ⟨S512x1024, .f32⟩
  | .local _ .vmem, ⟨21, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S3073x1024_S1024x1024_0_0 : S3073x1024.Slices ![0, 0] S1024x1024
  slices_S3073x1024_S1024x1024_1024_0 : S3073x1024.Slices ![1024, 0] S1024x1024
  slices_S3073x1024_S1024x1024_2048_0 : S3073x1024.Slices ![2048, 0] S1024x1024
  slices_S3073x1024_S1x1024_3072_0 : S3073x1024.Slices ![3072, 0] S1x1024
  slices_S3073_S1024_0 : S3073.Slices ![0] S1024
  slices_S3073_S1024_1024 : S3073.Slices ![1024] S1024
  slices_S3073_S1024_2048 : S3073.Slices ![2048] S1024
  slices_S3073_S1_3072 : S3073.Slices ![3072] S1
  bcast_S_S127x1024 : S_.BroadcastsInDim S127x1024 (![] : Fin 0 → Fin S127x1024.rank)
  concatenates_S1x1024_S127x1024_S128x1024_d0 : Shape.Concatenates [S1x1024, S127x1024] S128x1024 0
  bcast_S_S127 : S_.BroadcastsInDim S127 (![] : Fin 0 → Fin S127.rank)
  concatenates_S1_S127_S128_d0 : Shape.Concatenates [S1, S127] S128 0
  transposes_S1024x1024_S1024x1024_1_0 : S1024x1024.Transposes [1, 0] S1024x1024
  bitsLt_bf16_f32 : FTy.bits .bf16 < FTy.bits .f32
  transposes_S128x1024_S1024x128_1_0 : S128x1024.Transposes [1, 0] S1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S256x1024 : S1x1024.Broadcasts S256x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S256x128 : S1x128.Broadcasts S256x128
  slices_S256x128_o0_0_S256x1 : S256x128.Slices ![0, 0] S256x1
  reduces_S256x1024_S256 : S256x1024.Reduces [1] S256
  shapeCasts_S256_S256x1 : S256.ShapeCasts S256x1
  broadcasts_S256x1_S256x1024 : S256x1.Broadcasts S256x1024
  packedbf16_S256x1024_S256x1024_0_0 : (Rect.unit (s := S256x1024) ![0, 0] S256x1024.size inb_S256x1024_S256x1024_0_0).PackedRows (EltTy.packing .bf16)
  reducesTo_S2x1024x1024_S1024x1024_d0 : S2x1024x1024.ReducesTo [0] S1024x1024
  h_S_ : 0 < S_.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S1x1024_S512x1024 : S1x1024.Broadcasts S512x1024
  dot_S256x1024_S1024x1024_S256x1024_1_0_0_1_n_n_wf : DotDims.WF S256x1024 S1024x1024 S256x1024 [1] [0] [0] [1] [] []
  dot_S256x1024_S1024x128_S256x128_1_0_0_1_n_n_wf : DotDims.WF S256x1024 S1024x128 S256x128 [1] [0] [0] [1] [] []
  dot_S256x1024_S256x1024_S1024x1024_0_0_1_1_n_n_wf : DotDims.WF S256x1024 S256x1024 S1024x1024 [0] [0] [1] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .bf16 = 32 ∨ (Rect.block (s := S1024x128) S1024x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x1024.size a ≤ S2x1024x1024.size a
  hwx0_11 : ∀ i : grid0.Coords, EltTy.bits .f32 = 32 ∨ (Rect.block (s := S2x1024x1024) S1x1024x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S16384x1024.size a
  hwx0_12 : ∀ i : grid0.Coords, EltTy.bits .bf16 = 32 ∨ (Rect.block (s := S16384x1024) S256x1024.size (cc0_transform_12 i) (hinb0_12 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .bf16 = 32 ∨ (Rect.block (s := S16384x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S16384x1024.size a
  hwx1_3 : ∀ i : grid1.Coords, EltTy.bits .f32 = 32 ∨ (Rect.block (s := S16384x1024) S512x1024.size (cc1_transform_3 i) (hinb1_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg4) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22_0) S1x1024x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v22_1) S256x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v22_1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S3073x1024 : Shape := ⟨2, ![3073, 1024]⟩
abbrev S3073 : Shape := ⟨1, ![3073]⟩
abbrev S1024x1024 : Shape := ⟨2, ![1024, 1024]⟩
abbrev S1024 : Shape := ⟨1, ![1024]⟩
abbrev S1024x3073 : Shape := ⟨2, ![1024, 3073]⟩
abbrev S16384x3073 : Shape := ⟨2, ![16384, 3073]⟩
abbrev S1x3073 : Shape := ⟨2, ![1, 3073]⟩
abbrev S16384x1 : Shape := ⟨2, ![16384, 1]⟩
abbrev S_ : Shape := ⟨0, ![]⟩
abbrev S16384 : Shape := ⟨1, ![16384]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S3073x1024, .f32⟩
  | .hbm, ⟨2, _⟩ => ⟨S3073, .f32⟩
  | .hbm, ⟨3, _⟩ => ⟨S1024x1024, .f32⟩
  | .hbm, ⟨4, _⟩ => ⟨S1024, .f32⟩
  | .hbm, ⟨5, _⟩ => ⟨S1024x3073, .f32⟩
  | .hbm, ⟨6, _⟩ => ⟨S16384x3073, .f32⟩
  | .hbm, ⟨7, _⟩ => ⟨S1x3073, .f32⟩
  | .hbm, ⟨8, _⟩ => ⟨S16384x3073, .f32⟩
  | .hbm, ⟨9, _⟩ => ⟨S16384x3073, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S1024x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S1024x1024, .f32⟩
  | .hbm, ⟨53, _⟩ => ⟨S_, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S_, .f32⟩
  | .hbm, ⟨58, _⟩ => ⟨S16384, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S16384x1024, .f32⟩
  | .hbm, ⟨70, _⟩ => ⟨S16384x1024, .f32⟩
  | .hbm, ⟨71, _⟩ => ⟨S1024x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]

class Facts₀ : Prop where
  transposes_S3073x1024_S1024x3073_1_0 : S3073x1024.Transposes [1, 0] S1024x3073
  bcast_S3073_S1x3073_1 : S3073.BroadcastsInDim S1x3073 (![1] : Fin 1 → Fin S1x3073.rank)
  bcast_S1x3073_S16384x3073_0_1 : S1x3073.BroadcastsInDim S16384x3073 (![0, 1] : Fin 2 → Fin S16384x3073.rank)
  slices_S16384x3073_S16384x1024_0_0 : S16384x3073.Slices ![0, 0] S16384x1024
  slices_S16384x3073_S16384x1024_0_1024 : S16384x3073.Slices ![0, 1024] S16384x1024
  slices_S16384x3073_S16384x1024_0_2048 : S16384x3073.Slices ![0, 2048] S16384x1024
  slices_S16384x3073_S16384x1_0_3072 : S16384x3073.Slices ![0, 3072] S16384x1
  bcast_S_S16384x1 : S_.BroadcastsInDim S16384x1 (![] : Fin 0 → Fin S16384x1.rank)
  reducesTo_S16384x1024_S16384_d1 : S16384x1024.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S_S1024x1024 : S_.BroadcastsInDim S1024x1024 (![] : Fin 0 → Fin S1024x1024.rank)
  dot_S16384x1024_S1024x3073_S16384x3073_1_0_0_1_n_n_wf : DotDims.WF S16384x1024 S1024x3073 S16384x3073 [1] [0] [0] [1] [] []
  dot_S16384x1024_S1024x1024_S16384x1024_1_0_0_1_n_n_wf : DotDims.WF S16384x1024 S1024x1024 S16384x1024 [1] [0] [0] [1] [] []
  dot_S16384x1024_S16384x1024_S1024x1024_0_0_1_1_n_n_wf : DotDims.WF S16384x1024 S16384x1024 S1024x1024 [0] [0] [1] [1] [] []

variable [Facts₀]

def dot_S16384x1024_S1024x3073_S16384x3073_1_0_0_1_n_n : DotDims S16384x1024 S1024x3073 S16384x3073 where
  lhsContracting := [1]
  rhsContracting := [0]
  lhsNonContracting := [0]
  rhsNonContracting := [1]
  lhsBatch := []
  rhsBatch := []
  wf := dot_S16384x1024_S1024x3073_S16384x3073_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S16384x1024_S1024x1024_0_0_1_1_n_n : DotDims S16384x1024 S16384x1024 S1024x1024 where
  lhsContracting := [0]
  rhsContracting := [0]
  lhsNonContracting := [1]
  rhsNonContracting := [1]
  lhsBatch := []
  rhsBatch := []
  wf := dot_S16384x1024_S16384x1024_S1024x1024_0_0_1_1_n_n_wf

class Facts : Prop extends Facts₀ where

variable [Facts]
-- ==== Proof.Spec.lean ====
/-
  The mathematics of the fast-weight update, over the extended reals.

  For a batch of 16384 rows x_r (1024 entries each), slow weights W (3073 x 1024) with bias b, fast weights
  F (1024 x 1024) with bias g:  s_r = W x_r + b  is cut into keys k_r (columns 0..1023), values v_r (1024..2047),
  queries q_r (2048..3071) and a learning-rate logit (column 3072).  The old memory is read with the softmax of the
  keys,  vbar_r = F softmax(k_r) + g;  the update is the batch mean of the outer products
  delta = (1/16384) * sum_r  sigmoid(l_r) (v_r - vbar_r) sigmoid(k_r)^T;  the result reads the new memory with the
  softmax of the queries,  out_r = (F + delta) softmax(q_r) + g.

  One program divides the whole sum by 16384; the other multiplies every row's term by 2^-14 before it is summed,
  256 rows at a time, 32 such tiles per half of the batch, the two halves added last.  The two agree on every extended
  real because multiplication by a nonnegative finite constant distributes over sums there (no finiteness needed).
-/
import Idealize.ShloMosaic.PureOps.Ideal
import Idealize.ShloMosaic.PureOps.Ideal.Laws
import Idealize.ShloMosaic.Lib.ValueIdx

noncomputable section

open scoped BigOperators

namespace Cert.FastWeights

open Idealize.ShloMosaic Idealize.ShloMosaic.ValueIdx

/-- The arrays: batch, slow weights, slow bias, fast weights, fast bias. -/
abbrev AX := (⟨2, ![16384, 1024]⟩ : Shape).Idx → EReal
abbrev AW := (⟨2, ![3073, 1024]⟩ : Shape).Idx → EReal
abbrev AB := (⟨1, ![3073]⟩ : Shape).Idx → EReal
abbrev AF := (⟨2, ![1024, 1024]⟩ : Shape).Idx → EReal
abbrev AG := (⟨1, ![1024]⟩ : Shape).Idx → EReal

/-- The float words the programs spell: minus infinity, 2^-14, 16384, one. -/
abbrev negInf : EReal := Ideal.ofBits .f32 0xFF800000#32
abbrev invB : EReal := Ideal.ofBits .f32 0x38800000#32
abbrev bigB : EReal := Ideal.ofBits .f32 0x46800000#32

theorem invB_eq : invB = ((1 / 16384 : ℝ) : EReal) := by
  simp [invB, Ideal.ofBits, Ideal.ieee]
  rw [← EReal.coe_mul]
  norm_num

theorem bigB_eq : bigB = ((16384 : ℝ) : EReal) := by
  simp [bigB, Ideal.ofBits, Ideal.ieee]
  rw [← EReal.coe_mul]
  norm_num

theorem one_eq : Ideal.ofBits .f32 0x3F800000#32 = (1 : EReal) := by
  simp [Ideal.ofBits, Ideal.ieee]
  norm_cast
  norm_num

/-- The largest entry of a row, started from minus infinity (twice: the reduction's start and the guard around it). -/
def rowMax (z : Fin 1024 → EReal) : EReal := max negInf ((Finset.univ : Finset (Fin 1024)).fold max negInf z)

/-- Softmax of a row: exp(z_j - max z) / sum_k exp(z_k - max z). -/
def softmax (z : Fin 1024 → EReal) (j : Fin 1024) : EReal :=
  Ideal.div (Ideal.exp (z j - rowMax z)) (∑ k : Fin 1024, Ideal.exp (z k - rowMax z))

/-- Entry (r, j) of the slow projection s = x W^T + b. -/
def slow (x : AX) (w : AW) (b : AB) (r : Fin 16384) (j : Fin 3073) : EReal :=
  ∑ i : Fin 1024, x (ix2 r i) * w (ix2 j i) + b (ix1 j)

/-- The columns of the slow projection that hold keys, values, queries, and the learning-rate logit. -/
def colK (j : Fin 1024) : Fin 3073 := ⟨j.val, by have := j.isLt; omega⟩
def colV (j : Fin 1024) : Fin 3073 := ⟨1024 + j.val, by have := j.isLt; omega⟩
def colQ (j : Fin 1024) : Fin 3073 := ⟨2048 + j.val, by have := j.isLt; omega⟩
def colL : Fin 3073 := ⟨3072, by omega⟩

/-- Row r's keys and queries. -/
def keys (x : AX) (w : AW) (b : AB) (r : Fin 16384) : Fin 1024 → EReal := fun j => slow x w b r (colK j)
def queries (x : AX) (w : AW) (b : AB) (r : Fin 16384) : Fin 1024 → EReal := fun j => slow x w b r (colQ j)

/-- The old memory read with row r's keys: (F softmax(k_r) + g)_o. -/
def readOld (x : AX) (w : AW) (b : AB) (f : AF) (g : AG) (r : Fin 16384) (o : Fin 1024) : EReal :=
  ∑ h : Fin 1024, softmax (keys x w b r) h * f (ix2 o h) + g (ix1 o)

/-- Row r's update direction at output o: sigmoid(l_r) (v_r - vbar_r)_o. -/
def term (x : AX) (w : AW) (b : AB) (f : AF) (g : AG) (r : Fin 16384) (o : Fin 1024) : EReal :=
  Ideal.logistic (slow x w b r colL) * (slow x w b r (colV o) - readOld x w b f g r o)

/-- sigmoid of row r's key h. -/
def gate (x : AX) (w : AW) (b : AB) (r : Fin 16384) (h : Fin 1024) : EReal :=
  Ideal.logistic (slow x w b r (colK h))

/-- The update as the reference takes it: the whole batch summed, then divided by 16384. -/
def deltaRef (x : AX) (w : AW) (b : AB) (f : AF) (g : AG) (o h : Fin 1024) : EReal :=
  Ideal.div (∑ r : Fin 16384, term x w b f g r o * gate x w b r h) bigB

/-- Row rr of tile s of half c of the batch. -/
def rowOf (c : Fin 2) (s : Fin 32) (rr : Fin 256) : Fin 16384 :=
  ⟨(c.val * 32 + s.val) * 256 + rr.val, by have := c.isLt; have := s.isLt; have := rr.isLt; omega⟩

/-- One tile's contribution, every row's term scaled by 2^-14 before the sum. -/
def tileSum (x : AX) (w : AW) (b : AB) (f : AF) (g : AG) (o h : Fin 1024) (c : Fin 2) (s : Fin 32) : EReal :=
  ∑ rr : Fin 256, (term x w b f g (rowOf c s rr) o * invB) * gate x w b (rowOf c s rr) h

/-- The update as the kernel takes it: per half of the batch the 32 tiles summed, then the two halves. -/
def deltaKer (x : AX) (w : AW) (b : AB) (f : AF) (g : AG) (o h : Fin 1024) : EReal :=
  ∑ c : Fin 2, ∑ s : Fin 32, tileSum x w b f g o h c s

/-- The result, reading a memory F + delta with row r's queries. -/
def result (δ : Fin 1024 → Fin 1024 → EReal) (x : AX) (w : AW) (b : AB) (f : AF) (g : AG)
    (r : Fin 16384) (o : Fin 1024) : EReal :=
  ∑ h : Fin 1024, softmax (queries x w b r) h * (f (ix2 o h) + δ o h) + g (ix1 o)

/-! ## The law: scaling every term by a nonnegative finite constant is scaling the sum -/

/-- Multiplication by a nonnegative real distributes over a finite sum of extended reals. -/
theorem sum_mul_coe {ι : Type*} (s : Finset ι) (y : ι → EReal) (c : ℝ) (hc : 0 ≤ c) :
    ∑ i ∈ s, y i * (c : EReal) = (∑ i ∈ s, y i) * (c : EReal) := by
  classical
  induction s using Finset.induction_on with
  | empty => simp
  | insert a s ha ih =>
    rw [Finset.sum_insert ha, Finset.sum_insert ha, ih, mul_comm (y a + ∑ i ∈ s, y i) (c : EReal),
      EReal.left_distrib_of_nonneg_of_ne_top (EReal.coe_nonneg.mpr hc) (EReal.coe_ne_top c),
      mul_comm (c : EReal) (y a), mul_comm (c : EReal) (∑ i ∈ s, y i)]

/-- A row of the batch is (half, tile, row in tile). -/
def rowEquiv : Fin 2 × (Fin 32 × Fin 256) ≃ Fin 16384 where
  toFun q := rowOf q.1 q.2.1 q.2.2
  invFun r := (⟨r.val / 8192, by have := r.isLt; omega⟩, ⟨(r.val / 256) % 32, by omega⟩, ⟨r.val % 256, by omega⟩)
  left_inv q := by
    obtain ⟨c, s, rr⟩ := q
    have := c.isLt; have := s.isLt; have := rr.isLt
    refine Prod.ext (Fin.ext ?_) (Prod.ext (Fin.ext ?_) (Fin.ext ?_)) <;> simp only [rowOf] <;> omega
  right_inv r := Fin.ext (by simp only [rowOf]; have := r.isLt; omega)

/-- The batch is the two halves of 32 tiles of 256 rows. -/
theorem sum_rows (F : Fin 16384 → EReal) :
    ∑ c : Fin 2, ∑ s : Fin 32, ∑ rr : Fin 256, F (rowOf c s rr) = ∑ r : Fin 16384, F r := by
  rw [← Equiv.sum_comp rowEquiv F]
  simp only [Fintype.sum_prod_type]
  rfl

/-- The kernel's update is the reference's. -/
theorem deltaKer_eq (x : AX) (w : AW) (b : AB) (f : AF) (g : AG) (o h : Fin 1024) :
    deltaKer x w b f g o h = deltaRef x w b f g o h := by
  unfold deltaKer deltaRef tileSum
  rw [bigB_eq, Ideal.div_coe (by norm_num : (16384 : ℝ) ≠ 0), ← sum_mul_coe _ _ _ (by norm_num),
    ← sum_rows (fun r => term x w b f g r o * gate x w b r h * ((1 / 16384 : ℝ) : EReal))]
  refine Finset.sum_congr rfl fun c _ => Finset.sum_congr rfl fun s _ => Finset.sum_congr rfl fun rr _ => ?_
  rw [invB_eq, mul_right_comm]

end Cert.FastWeights

end
-- ==== Proof.RefValue.lean ====
/-
  The reference program's result, read one entry at a time, is the specification: entry (r, o) is the read of the
  memory F + delta with row r's queries, delta the whole batch's outer products summed and then divided by 16384.
  The reference spells the sigmoid as 1 / (1 + exp(-z)) and the row maximum as a fold started at minus infinity;
  its matrix products are plain sums over the contracted axis, its slices and broadcasts re-index.
-/
import proofs.«103471_j34668976013857_2_alg».proof.Proof.Spec
import proofs.«103471_j34668976013857_2_alg».proof.Proof.Gen.ReferenceIdeal.Read
import Idealize.ShloMosaic.Lib.Pipeline.Value
import Idealize.ShloMosaic.Lib.ValueIdx
import Idealize.ShloMosaic.PureOps.Ideal.Laws

noncomputable section

open scoped BigOperators

namespace Cert.FastWeights.Ref

open Cert.ReferenceIdeal Cert.ReferenceIdeal.Read Idealize.ShloMosaic Idealize.ShloMosaic.ValueIdx Cert.FastWeights

section

variable (x0 : (⟨S16384x1024, .f32⟩ : BufTy).Contents (Elt Ideal)) (x1 : (⟨S3073x1024, .f32⟩ : BufTy).Contents (Elt Ideal))
  (x2 : (⟨S3073, .f32⟩ : BufTy).Contents (Elt Ideal)) (x3 : (⟨S1024x1024, .f32⟩ : BufTy).Contents (Elt Ideal))
  (x4 : (⟨S1024, .f32⟩ : BufTy).Contents (Elt Ideal))

/-! ## The slow projection -/

/-- Entry (r, j) of the slow projection: the row of the batch against row j of the weights, plus the bias. -/
theorem slow_apply (r : Fin 16384) (j : Fin 3073) :
    val_main_v4 (F := Ideal) x0 x1 x2 (ix2 r j) = slow x0 x1 x2 r j := by
  have e1 : ∀ k : Fin 1024, lidx_main_v1 (ix2 r j) k = ix2 r k := fun k =>
    funext fun a => Fin.ext (by match a with | ⟨0, _⟩ => rfl | ⟨1, _⟩ => rfl)
  have e2 : ∀ k : Fin 1024, idx_main_v0 (ridx_main_v1 (ix2 r j) k) = ix2 j k := fun k =>
    funext fun a => Fin.ext (by match a with | ⟨0, _⟩ => rfl | ⟨1, _⟩ => rfl)
  have e3 : idx_main_v2 (idx_main_v3 (ix2 r j)) = ix1 j :=
    funext fun a => Fin.ext (by match a with | ⟨0, _⟩ => rfl)
  rw [val_main_v4_apply, val_main_v1_apply, val_main_v3_apply, val_main_v2_apply, e3]
  simp only [val_main_v0_apply, e1, e2, Ideal.addf_def]
  rfl

/-- The key columns of the slow projection. -/
theorem keys_apply (r : Fin 16384) (j : Fin 1024) :
    val_main_v5 (F := Ideal) x0 x1 x2 (ix2 r j) = slow x0 x1 x2 r (colK j) := by
  have e : idx_main_v5 (ix2 r j) = ix2 r (colK j) :=
    funext fun a => Fin.ext (by match a with | ⟨0, _⟩ => rfl | ⟨1, _⟩ => rfl)
  rw [val_main_v5_apply, e, slow_apply]

/-- The value columns. -/
theorem values_apply (r : Fin 16384) (j : Fin 1024) :
    val_main_v6 (F := Ideal) x0 x1 x2 (ix2 r j) = slow x0 x1 x2 r (colV j) := by
  have e : idx_main_v6 (ix2 r j) = ix2 r (colV j) :=
    funext fun a => Fin.ext (by match a with | ⟨0, _⟩ => rfl | ⟨1, _⟩ => rfl)
  rw [val_main_v6_apply, e, slow_apply]

/-- The query columns. -/
theorem queries_apply (r : Fin 16384) (j : Fin 1024) :
    val_main_v7 (F := Ideal) x0 x1 x2 (ix2 r j) = slow x0 x1 x2 r (colQ j) := by
  have e : idx_main_v7 (ix2 r j) = ix2 r (colQ j) :=
    funext fun a => Fin.ext (by match a with | ⟨0, _⟩ => rfl | ⟨1, _⟩ => rfl)
  rw [val_main_v7_apply, e, slow_apply]

/-- The learning-rate logit, the last column. -/
theorem logit_apply (r : Fin 16384) (z : Fin 1) :
    val_main_v8 (F := Ideal) x0 x1 x2 (ix2 r z) = slow x0 x1 x2 r colL := by
  have e : idx_main_v8 (ix2 r z) = ix2 r colL :=
    funext fun a => Fin.ext (by
      match a with
      | ⟨0, _⟩ => rfl
      | ⟨1, _⟩ => show 3072 + z.val = 3072; omega)
  rw [val_main_v8_apply, e, slow_apply]

/-! ## The two sigmoids -/

/-- The learning rate: 1 / (1 + exp(-l_r)) is the sigmoid of the logit. -/
theorem rate_apply (r : Fin 16384) (z : Fin 1) :
    val_main_v14 (F := Ideal) x0 x1 x2 (ix2 r z) = Ideal.logistic (slow x0 x1 x2 r colL) := by
  rw [val_main_v14_apply, val_main_v13_apply, val_main_cst_0_apply, val_main_v12_apply, val_main_v11_apply,
    val_main_cst_apply, val_main_v10_apply, val_main_v9_apply, logit_apply]
  simp only [Ideal.hostDivf_def, Ideal.addf_def, Ideal.hostUnary_exp_def, Ideal.hostNegf_def, Ideal.negf_def,
    Ideal.ofBits_def, one_eq]
  rfl

/-- The gate: the sigmoid of a key. -/
theorem gate_apply (r : Fin 16384) (h : Fin 1024) :
    val_main_v39 (F := Ideal) x0 x1 x2 (ix2 r h) = gate x0 x1 x2 r h := by
  rw [val_main_v39_apply, val_main_v38_apply, val_main_cst_5_apply, val_main_v37_apply, val_main_v36_apply,
    val_main_cst_4_apply, val_main_v35_apply, val_main_v34_apply, keys_apply]
  simp only [Ideal.hostDivf_def, Ideal.addf_def, Ideal.hostUnary_exp_def, Ideal.hostNegf_def, Ideal.negf_def,
    Ideal.ofBits_def, one_eq]
  rfl

/-! ## The row maximum -/

/-- A row index with the column put back. -/
private theorem lift_row (h : S16384x1024.Reduces [1] S16384) (r : Fin 16384) (k : Fin (S16384x1024.size 1)) :
    h.lift (ix1 r) k = ix2 r (⟨k.val, k.isLt⟩ : Fin 1024) := by
  funext c; apply Fin.ext
  fin_cases c <;> rfl

/-- The reduction with a maximum body over the columns of a row is the fold of the maximum over that row. -/
theorem hostRowMax (y : S16384x1024.Idx → EReal) (c : S_.Idx → EReal)
    (z : Fin 1024 → EReal) (r : Fin 16384) (hz : ∀ k : Fin 1024, y (ix2 r k) = z k) :
    (Host.reduce (α := EReal) (FloatOps.maximumf (F := Ideal) (φ := .f32)) y c Gen.reducesTo_S16384x1024_S16384_d1 Gen.h_S_
        : S16384.Idx → EReal) (ix1 r)
      = (Finset.univ : Finset (Fin 1024)).fold max (c (Shape.Idx.first Gen.h_S_)) z := by
  have h : S16384x1024.Reduces [1] S16384 := by decide
  rw [Host.reduce_eq_fold_single (FloatOps.maximumf (F := Ideal) (φ := .f32)) y c Gen.reducesTo_S16384x1024_S16384_d1 h Gen.h_S_]
  have hf : (y ∘ h.lift (ix1 r)) = z := funext fun k => by
    show y (h.lift (ix1 r) k) = z k
    rw [lift_row]; exact hz _
  rw [hf]
  rfl

/-- The keys' row maximum, guarded by minus infinity. -/
theorem keyMax_apply (r : Fin 16384) :
    val_main_v17 (F := Ideal) x0 x1 x2 (ix1 r) = rowMax (keys x0 x1 x2 r) := by
  rw [val_main_v17_apply, val_main_v16_apply, val_main_cst_2_apply]
  unfold val_main_v15
  rw [hostRowMax _ _ (keys x0 x1 x2 r) r (fun k => keys_apply x0 x1 x2 r k), val_main_cst_1_apply]
  rfl

/-- The queries' row maximum, guarded by minus infinity. -/
theorem queryMax_apply (r : Fin 16384) :
    val_main_v46 (F := Ideal) x0 x1 x2 (ix1 r) = rowMax (queries x0 x1 x2 r) := by
  rw [val_main_v46_apply, val_main_v45_apply, val_main_cst_8_apply]
  unfold val_main_v44
  rw [hostRowMax _ _ (queries x0 x1 x2 r) r (fun k => queries_apply x0 x1 x2 r k), val_main_cst_7_apply]
  rfl

/-! ## The two softmaxes -/

/-- The keys' numerators: exp(k_j - max k). -/
theorem keyExp_apply (r : Fin 16384) (j : Fin 1024) :
    val_main_v21 (F := Ideal) x0 x1 x2 (ix2 r j)
      = Ideal.exp (keys x0 x1 x2 r j - rowMax (keys x0 x1 x2 r)) := by
  have e : idx_main_v18 (idx_main_v19 (ix2 r j)) = ix1 r :=
    funext fun a => Fin.ext (by match a with | ⟨0, _⟩ => rfl)
  rw [val_main_v21_apply, val_main_v20_apply, val_main_v19_apply, val_main_v18_apply, e, keyMax_apply, keys_apply]
  simp only [Ideal.hostUnary_exp_def, Ideal.subf_def]
  rfl

/-- The keys' denominator: the row's numerators summed from zero. -/
theorem keySum_apply (r : Fin 16384) :
    val_main_v22 (F := Ideal) x0 x1 x2 (ix1 r)
      = ∑ k : Fin 1024, Ideal.exp (keys x0 x1 x2 r k - rowMax (keys x0 x1 x2 r)) := by
  have e : ∀ k : Fin 1024, idx_main_v22 (ix1 r) k = ix2 r k := fun k =>
    funext fun a => Fin.ext (by match a with | ⟨0, _⟩ => rfl | ⟨1, _⟩ => rfl)
  rw [val_main_v22_apply, val_main_cst_3_apply]
  simp only [e, keyExp_apply, Ideal.ofBits_def, Ideal.ofBits_zero_f32, zero_add]

/-- The softmax of the keys. -/
theorem keySoftmax_apply (r : Fin 16384) (j : Fin 1024) :
    val_main_v25 (F := Ideal) x0 x1 x2 (ix2 r j) = softmax (keys x0 x1 x2 r) j := by
  have e : idx_main_v23 (idx_main_v24 (ix2 r j)) = ix1 r :=
    funext fun a => Fin.ext (by match a with | ⟨0, _⟩ => rfl)
  rw [val_main_v25_apply, val_main_v24_apply, val_main_v23_apply, e, keySum_apply, keyExp_apply]
  simp only [Ideal.hostDivf_def]
  rfl

/-- The queries' numerators: exp(q_j - max q). -/
theorem queryExp_apply (r : Fin 16384) (j : Fin 1024) :
    val_main_v50 (F := Ideal) x0 x1 x2 (ix2 r j)
      = Ideal.exp (queries x0 x1 x2 r j - rowMax (queries x0 x1 x2 r)) := by
  have e : idx_main_v47 (idx_main_v48 (ix2 r j)) = ix1 r :=
    funext fun a => Fin.ext (by match a with | ⟨0, _⟩ => rfl)
  rw [val_main_v50_apply, val_main_v49_apply, val_main_v48_apply, val_main_v47_apply, e, queryMax_apply, queries_apply]
  simp only [Ideal.hostUnary_exp_def, Ideal.subf_def]
  rfl

/-- The queries' denominator. -/
theorem querySum_apply (r : Fin 16384) :
    val_main_v51 (F := Ideal) x0 x1 x2 (ix1 r)
      = ∑ k : Fin 1024, Ideal.exp (queries x0 x1 x2 r k - rowMax (queries x0 x1 x2 r)) := by
  have e : ∀ k : Fin 1024, idx_main_v51 (ix1 r) k = ix2 r k := fun k =>
    funext fun a => Fin.ext (by match a with | ⟨0, _⟩ => rfl | ⟨1, _⟩ => rfl)
  rw [val_main_v51_apply, val_main_cst_9_apply]
  simp only [e, queryExp_apply, Ideal.ofBits_def, Ideal.ofBits_zero_f32, zero_add]

/-- The softmax of the queries. -/
theorem querySoftmax_apply (r : Fin 16384) (j : Fin 1024) :
    val_main_v54 (F := Ideal) x0 x1 x2 (ix2 r j) = softmax (queries x0 x1 x2 r) j := by
  have e : idx_main_v52 (idx_main_v53 (ix2 r j)) = ix1 r :=
    funext fun a => Fin.ext (by match a with | ⟨0, _⟩ => rfl)
  rw [val_main_v54_apply, val_main_v53_apply, val_main_v52_apply, e, querySum_apply, queryExp_apply]
  simp only [Ideal.hostDivf_def]
  rfl

/-! ## The old memory's read, the update, the new memory's read -/

/-- The old memory read with row r's keys. -/
theorem readOld_apply (r : Fin 16384) (o : Fin 1024) :
    val_main_v30 (F := Ideal) x0 x1 x2 x3 x4 (ix2 r o) = readOld x0 x1 x2 x3 x4 r o := by
  have e1 : ∀ k : Fin 1024, lidx_main_v27 (ix2 r o) k = ix2 r k := fun k =>
    funext fun a => Fin.ext (by match a with | ⟨0, _⟩ => rfl | ⟨1, _⟩ => rfl)
  have e2 : ∀ k : Fin 1024, idx_main_v26 (ridx_main_v27 (ix2 r o) k) = ix2 o k := fun k =>
    funext fun a => Fin.ext (by match a with | ⟨0, _⟩ => rfl | ⟨1, _⟩ => rfl)
  have e3 : idx_main_v28 (idx_main_v29 (ix2 r o)) = ix1 o :=
    funext fun a => Fin.ext (by match a with | ⟨0, _⟩ => rfl)
  rw [val_main_v30_apply, val_main_v27_apply, val_main_v29_apply, val_main_v28_apply, e3]
  simp only [val_main_v26_apply, e1, e2, keySoftmax_apply, Ideal.addf_def]
  rfl

/-- Row r's update direction at output o. -/
theorem term_apply (r : Fin 16384) (o : Fin 1024) :
    val_main_v33 (F := Ideal) x0 x1 x2 x3 x4 (ix2 r o) = term x0 x1 x2 x3 x4 r o := by
  have e : idx_main_v32 (ix2 r o) = ix2 r (0 : Fin 1) :=
    funext fun a => Fin.ext (by match a with | ⟨0, _⟩ => rfl | ⟨1, _⟩ => rfl)
  rw [val_main_v33_apply, val_main_v32_apply, e, rate_apply, val_main_v31_apply, values_apply, readOld_apply]
  simp only [Ideal.mulf_def, Ideal.subf_def]
  rfl

/-- The update: the batch's outer products summed, then divided by 16384. -/
theorem delta_apply (o h : Fin 1024) :
    val_main_v42 (F := Ideal) x0 x1 x2 x3 x4 (ix2 o h) = deltaRef x0 x1 x2 x3 x4 o h := by
  have e1 : ∀ k : Fin 16384, lidx_main_v40 (ix2 o h) k = ix2 k o := fun k =>
    funext fun a => Fin.ext (by match a with | ⟨0, _⟩ => rfl | ⟨1, _⟩ => rfl)
  have e2 : ∀ k : Fin 16384, ridx_main_v40 (ix2 o h) k = ix2 k h := fun k =>
    funext fun a => Fin.ext (by match a with | ⟨0, _⟩ => rfl | ⟨1, _⟩ => rfl)
  rw [val_main_v42_apply, val_main_v40_apply, val_main_v41_apply, val_main_cst_6_apply]
  simp only [e1, e2, term_apply, gate_apply, Ideal.hostDivf_def, Ideal.ofBits_def]
  rfl

/-- The new memory, transposed for the last product: entry (h, o) is F_oh + delta_oh. -/
theorem newMemory_apply (h o : Fin 1024) :
    val_main_v55 (F := Ideal) x0 x1 x2 x3 x4 (ix2 h o) = x3 (ix2 o h) + deltaRef x0 x1 x2 x3 x4 o h := by
  have e : idx_main_v55 (ix2 h o) = ix2 o h :=
    funext fun a => Fin.ext (by match a with | ⟨0, _⟩ => rfl | ⟨1, _⟩ => rfl)
  rw [val_main_v55_apply, e, val_main_v43_apply, delta_apply]
  simp only [Ideal.addf_def]

end

/-- The reference's result at entry (r, o). -/
theorem ref_apply (x0 : (⟨S16384x1024, .f32⟩ : BufTy).Contents (Elt Ideal)) (x1 : (⟨S3073x1024, .f32⟩ : BufTy).Contents (Elt Ideal))
    (x2 : (⟨S3073, .f32⟩ : BufTy).Contents (Elt Ideal)) (x3 : (⟨S1024x1024, .f32⟩ : BufTy).Contents (Elt Ideal))
    (x4 : (⟨S1024, .f32⟩ : BufTy).Contents (Elt Ideal)) (r : Fin 16384) (o : Fin 1024) :
    val_main_v59 (F := Ideal) x0 x1 x2 x3 x4 (ix2 r o) = result (deltaRef x0 x1 x2 x3 x4) x0 x1 x2 x3 x4 r o := by
  have e1 : ∀ k : Fin 1024, lidx_main_v56 (ix2 r o) k = ix2 r k := fun k =>
    funext fun a => Fin.ext (by match a with | ⟨0, _⟩ => rfl | ⟨1, _⟩ => rfl)
  have e2 : ∀ k : Fin 1024, ridx_main_v56 (ix2 r o) k = ix2 k o := fun k =>
    funext fun a => Fin.ext (by match a with | ⟨0, _⟩ => rfl | ⟨1, _⟩ => rfl)
  have e3 : idx_main_v57 (idx_main_v58 (ix2 r o)) = ix1 o :=
    funext fun a => Fin.ext (by match a with | ⟨0, _⟩ => rfl)
  rw [val_main_v59_apply, val_main_v56_apply, val_main_v58_apply, val_main_v57_apply, e3]
  simp only [e1, e2, querySoftmax_apply, newMemory_apply, Ideal.addf_def]
  rfl

end Cert.FastWeights.Ref

end
-- ==== Proof.Run.lean ====
/-
  The idealized kernel program's run with its result named: every weakly fair execution terminates, nothing faults,
  the five arguments end as launched, and the result array ends at what the second region's write-backs leave of its
  output window after the last grid point.
-/
import proofs.«103471_j34668976013857_2_alg».proof.Proof.Gen.KernelIdeal.Frame

set_option maxRecDepth 16384

noncomputable section

namespace Cert.FastWeights.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the second region's output after its last point, the arguments unchanged. -/
theorem run : θ_run defs (onTc (τ := τ) (main (F := F))) ⟨m, fun _ => 0, ρ⟩ (fun r => ∀ c : Dev nD,
      r.2.mem ((c.tc : Thread nD τ).loc main_v27) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v27 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.FastWeights.Run

end
-- ==== Proof.Body.lean ====
/-
  The two kernel bodies' arithmetic, read one entry at a time over the extended reals.

  A tile of 256 rows goes through four linear maps (keys, values, queries and the learning-rate logit: each a sum over
  the 1024 inputs plus a bias), two row softmaxes, the read of the old memory, and the tile's share of the update:
  entry (o, h) of the running memory grows by the sum over the tile's rows of
  (sigmoid(l) (v - vbar)_o 2^-14) sigmoid(k_h).  The second body is one more linear map (512 rows at a time).
-/
import proofs.«103471_j34668976013857_2_alg».proof.Proof.Spec
import proofs.«103471_j34668976013857_2_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.FastWeights.Body

open Cert.KernelIdeal Cert.KernelIdeal.Gen Idealize.ShloMosaic Idealize.ShloMosaic.ValueIdx Cert.FastWeights

/-- A linear map on a tile of R rows: entry (r, j) is sum_i x(r, i) w(i, j) + b(j). -/
def lin {R C : Nat} (x : (⟨2, ![R, 1024]⟩ : Shape).Idx → EReal) (w : (⟨2, ![1024, C]⟩ : Shape).Idx → EReal)
    (b : (⟨1, ![C]⟩ : Shape).Idx → EReal) (r : Fin R) (j : Fin C) : EReal :=
  ∑ i : Fin 1024, x (ix2 r i) * w (ix2 i j) + b (ix1 j)

/-- The factors' positions for this product: at entry (r, j) and inner position q the left factor is read at (r, q) and the
    right factor at (q, j); one coordinate per lemma. -/
private theorem mm_tile_l0 (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
private theorem mm_tile_l1 (i : S256x1024.Idx) (q : dot_S256x1024_S1024x1024_S256x1024_1_0_0_1_n_n.contr.Idx) : (dot_S256x1024_S1024x1024_S256x1024_1_0_0_1_n_n.lhsIdx i q 1).val = (q ⟨0, by decide⟩).val :=
  dot_S256x1024_S1024x1024_S256x1024_1_0_0_1_n_n.lhsIdx_val_of_single rfl i q
private theorem mm_tile_r0 (i : S256x1024.Idx) (q : dot_S256x1024_S1024x1024_S256x1024_1_0_0_1_n_n.contr.Idx) : (dot_S256x1024_S1024x1024_S256x1024_1_0_0_1_n_n.rhsIdx i q 0).val = (q ⟨0, by decide⟩).val :=
  dot_S256x1024_S1024x1024_S256x1024_1_0_0_1_n_n.rhsIdx_val_of_single rfl i q
private theorem mm_tile_r1 (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl
/-- A product of a tile of 256 rows with a 1024 x 1024 matrix, accumulated from zero, at entry (r, j): the sum over the
    1024 inner positions of the two factors' products. -/
private theorem mm_tile {φ₁ φ₂ : FTy} (a : FVec Ideal S256x1024 φ₁) (w : FVec Ideal S1024x1024 φ₂) (r : Fin 256) (j : Fin 1024) :
    matmul dot_S256x1024_S1024x1024_S256x1024_1_0_0_1_n_n none a w (constant S256x1024 .f32 0x00000000#32) (ix2 r j) = ∑ i : Fin 1024, a (ix2 r i) * w (ix2 i j) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r j) ((contrEquiv1 dot_S256x1024_S1024x1024_S256x1024_1_0_0_1_n_n 1024 rfl rfl).symm k) = ix2 r k := funext fun a => Fin.ext (by
    match a with
    | ⟨0, _⟩ => exact mm_tile_l0 _ _
    | ⟨1, _⟩ => exact (mm_tile_l1 _ _).trans hk)
  have er : dot_S256x1024_S1024x1024_S256x1024_1_0_0_1_n_n.rhsIdx (ix2 r j) ((contrEquiv1 dot_S256x1024_S1024x1024_S256x1024_1_0_0_1_n_n 1024 rfl rfl).symm k) = ix2 k j := funext fun a => Fin.ext (by
    match a with
    | ⟨0, _⟩ => exact (mm_tile_r0 _ _).trans hk
    | ⟨1, _⟩ => exact mm_tile_r1 _ _)
  rw [el, er]

/-- The factors' positions for this product: at entry (r, j) and inner position q the left factor is read at (r, q) and the
    right factor at (q, j); one coordinate per lemma. -/
private theorem mm_lr_l0 (i : S256x128.Idx) (q : dot_S256x1024_S1024x128_S256x128_1_0_0_1_n_n.contr.Idx) : (dot_S256x1024_S1024x128_S256x128_1_0_0_1_n_n.lhsIdx i q 0).val = (i 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
private theorem mm_lr_l1 (i : S256x128.Idx) (q : dot_S256x1024_S1024x128_S256x128_1_0_0_1_n_n.contr.Idx) : (dot_S256x1024_S1024x128_S256x128_1_0_0_1_n_n.lhsIdx i q 1).val = (q ⟨0, by decide⟩).val :=
  dot_S256x1024_S1024x128_S256x128_1_0_0_1_n_n.lhsIdx_val_of_single rfl i q
private theorem mm_lr_r0 (i : S256x128.Idx) (q : dot_S256x1024_S1024x128_S256x128_1_0_0_1_n_n.contr.Idx) : (dot_S256x1024_S1024x128_S256x128_1_0_0_1_n_n.rhsIdx i q 0).val = (q ⟨0, by decide⟩).val :=
  dot_S256x1024_S1024x128_S256x128_1_0_0_1_n_n.rhsIdx_val_of_single rfl i q
private theorem mm_lr_r1 (i : S256x128.Idx) (q : dot_S256x1024_S1024x128_S256x128_1_0_0_1_n_n.contr.Idx) : (dot_S256x1024_S1024x128_S256x128_1_0_0_1_n_n.rhsIdx i q 1).val = (i 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl
/-- A product of a tile of 256 rows with a 1024 x 128 matrix, accumulated from zero, at entry (r, j): the sum over the
    1024 inner positions of the two factors' products. -/
private theorem mm_lr {φ₁ φ₂ : FTy} (a : FVec Ideal S256x1024 φ₁) (w : FVec Ideal S1024x128 φ₂) (r : Fin 256) (j : Fin 128) :
    matmul dot_S256x1024_S1024x128_S256x128_1_0_0_1_n_n none a w (constant S256x128 .f32 0x00000000#32) (ix2 r j) = ∑ i : Fin 1024, a (ix2 r i) * w (ix2 i j) := by
  simp only [matmul]
  rw [Ideal.matmul_constant_zero_apply, ← Equiv.sum_comp (contrEquiv1 dot_S256x1024_S1024x128_S256x128_1_0_0_1_n_n 1024 rfl rfl).symm]
  refine Finset.sum_congr rfl fun k _ => ?_
  have hk := contrEquiv1_symm_val dot_S256x1024_S1024x128_S256x128_1_0_0_1_n_n 1024 rfl rfl k
  have el : dot_S256x1024_S1024x128_S256x128_1_0_0_1_n_n.lhsIdx (ix2 r j) ((contrEquiv1 dot_S256x1024_S1024x128_S256x128_1_0_0_1_n_n 1024 rfl rfl).symm k) = ix2 r k := funext fun a => Fin.ext (by
    match a with
    | ⟨0, _⟩ => exact mm_lr_l0 _ _
    | ⟨1, _⟩ => exact (mm_lr_l1 _ _).trans hk)
  have er : dot_S256x1024_S1024x128_S256x128_1_0_0_1_n_n.rhsIdx (ix2 r j) ((contrEquiv1 dot_S256x1024_S1024x128_S256x128_1_0_0_1_n_n 1024 rfl rfl).symm k) = ix2 k j := funext fun a => Fin.ext (by
    match a with
    | ⟨0, _⟩ => exact (mm_lr_r0 _ _).trans hk
    | ⟨1, _⟩ => exact mm_lr_r1 _ _)
  rw [el, er]

/-- The factors' positions for this product: at entry (r, j) and inner position q the left factor is read at (r, q) and the
    right factor at (q, j); one coordinate per lemma. -/
private theorem mm_out_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
private theorem mm_out_l1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
private theorem mm_out_r0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
private theorem mm_out_r1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
/-- A product of a tile of 512 rows with a 1024 x 1024 matrix, accumulated from zero, at entry (r, j): the sum over the
    1024 inner positions of the two factors' products. -/
private theorem mm_out {φ₁ φ₂ : FTy} (a : FVec Ideal S512x1024 φ₁) (w : FVec Ideal S1024x1024 φ₂) (r : Fin 512) (j : Fin 1024) :
    matmul dot_S512x1024_S1024x1024_S512x1024_1_0_0_1_n_n none a w (constant S512x1024 .f32 0x00000000#32) (ix2 r j) = ∑ i : Fin 1024, a (ix2 r i) * w (ix2 i j) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r j) ((contrEquiv1 dot_S512x1024_S1024x1024_S512x1024_1_0_0_1_n_n 1024 rfl rfl).symm k) = ix2 r k := funext fun a => Fin.ext (by
    match a with
    | ⟨0, _⟩ => exact mm_out_l0 _ _
    | ⟨1, _⟩ => exact (mm_out_l1 _ _).trans hk)
  have er : dot_S512x1024_S1024x1024_S512x1024_1_0_0_1_n_n.rhsIdx (ix2 r j) ((contrEquiv1 dot_S512x1024_S1024x1024_S512x1024_1_0_0_1_n_n 1024 rfl rfl).symm k) = ix2 k j := funext fun a => Fin.ext (by
    match a with
    | ⟨0, _⟩ => exact (mm_out_r0 _ _).trans hk
    | ⟨1, _⟩ => exact mm_out_r1 _ _)
  rw [el, er]

/-- A bias row of 1024 entries spread over 256 rows reads, at (r, j), its j-th entry. -/
private theorem bias_tile {α : Type} (b : (⟨1, ![1024]⟩ : Shape).Idx → α) (h1 : (⟨1, ![1024]⟩ : Shape).ShapeCasts ⟨2, ![1, 1024]⟩)
    (h2 : (⟨2, ![1, 1024]⟩ : Shape).Broadcasts ⟨2, ![256, 1024]⟩) (r : Fin 256) (j : Fin 1024) :
    broadcastTo ⟨2, ![256, 1024]⟩ (shapeCast ⟨2, ![1, 1024]⟩ b h1) h2 (ix2 r j) = b (ix1 j) := by
  refine (broadcastTo_apply _ h2 (ix2 r j) (ix2 (0 : Fin 1) j) (fun a => ?_)).trans ?_
  · match a with
    | ⟨0, _⟩ => show 0 = if (1 : Nat) = 1 then 0 else r.val; rw [if_pos rfl]
    | ⟨1, _⟩ => show j.val = if (1024 : Nat) = 1 then 0 else j.val; rw [if_neg (by decide)]
  · refine (shapeCast_addUnit_apply ![1024] b h1 (ix2 (0 : Fin 1) j)).trans (congrArg b ?_)
    funext a
    match a with
    | ⟨0, _⟩ => rfl

/-- A bias row of 128 entries spread over 256 rows reads, at (r, j), its j-th entry. -/
private theorem bias_lr {α : Type} (b : (⟨1, ![128]⟩ : Shape).Idx → α) (h1 : (⟨1, ![128]⟩ : Shape).ShapeCasts ⟨2, ![1, 128]⟩)
    (h2 : (⟨2, ![1, 128]⟩ : Shape).Broadcasts ⟨2, ![256, 128]⟩) (r : Fin 256) (j : Fin 128) :
    broadcastTo ⟨2, ![256, 128]⟩ (shapeCast ⟨2, ![1, 128]⟩ b h1) h2 (ix2 r j) = b (ix1 j) := by
  refine (broadcastTo_apply _ h2 (ix2 r j) (ix2 (0 : Fin 1) j) (fun a => ?_)).trans ?_
  · match a with
    | ⟨0, _⟩ => show 0 = if (1 : Nat) = 1 then 0 else r.val; rw [if_pos rfl]
    | ⟨1, _⟩ => show j.val = if (128 : Nat) = 1 then 0 else j.val; rw [if_neg (by decide)]
  · refine (shapeCast_addUnit_apply ![128] b h1 (ix2 (0 : Fin 1) j)).trans (congrArg b ?_)
    funext a
    match a with
    | ⟨0, _⟩ => rfl

/-- A bias row of 1024 entries spread over 512 rows reads, at (r, j), its j-th entry. -/
private theorem bias_out {α : Type} (b : (⟨1, ![1024]⟩ : Shape).Idx → α) (h1 : (⟨1, ![1024]⟩ : Shape).ShapeCasts ⟨2, ![1, 1024]⟩)
    (h2 : (⟨2, ![1, 1024]⟩ : Shape).Broadcasts ⟨2, ![512, 1024]⟩) (r : Fin 512) (j : Fin 1024) :
    broadcastTo ⟨2, ![512, 1024]⟩ (shapeCast ⟨2, ![1, 1024]⟩ b h1) h2 (ix2 r j) = b (ix1 j) := by
  refine (broadcastTo_apply _ h2 (ix2 r j) (ix2 (0 : Fin 1) j) (fun a => ?_)).trans ?_
  · match a with
    | ⟨0, _⟩ => show 0 = if (1 : Nat) = 1 then 0 else r.val; rw [if_pos rfl]
    | ⟨1, _⟩ => show j.val = if (1024 : Nat) = 1 then 0 else j.val; rw [if_neg (by decide)]
  · refine (shapeCast_addUnit_apply ![1024] b h1 (ix2 (0 : Fin 1) j)).trans (congrArg b ?_)
    funext a
    match a with
    | ⟨0, _⟩ => rfl

/-- A column of 256 entries spread over 1024 columns reads, at (r, j), its r-th entry. -/
private theorem col_tile {α : Type} (c : (⟨1, ![256]⟩ : Shape).Idx → α) (h1 : S256.ShapeCasts S256x1)
    (h2 : S256x1.Broadcasts S256x1024) (r : Fin 256) (j : Fin 1024) :
    broadcastTo S256x1024 (shapeCast S256x1 c h1) h2 (ix2 r j) = c (ix1 r) := by
  refine (broadcastTo_apply _ h2 (ix2 r j) (ix2 r (0 : Fin 1)) (fun a => ?_)).trans ?_
  · match a with
    | ⟨0, _⟩ => show r.val = if (256 : Nat) = 1 then 0 else r.val; rw [if_neg (by decide)]
    | ⟨1, _⟩ => show 0 = if (1 : Nat) = 1 then 0 else j.val; rw [if_pos rfl]
  · refine shapeCast_apply c h1 (ix2 r (0 : Fin 1)) (ix1 r) ?_
    rw [Shape.rowMajor_val_one, Shape.rowMajor_val_two]
    show r.val = r.val * 1 + 0
    omega

/-- Row r with the column coordinate k put back in is the entry (r, k). -/
private theorem lift_row (h : S256x1024.Reduces [1] S256) (r : Fin 256) (k : Fin 1024) : h.lift (ix1 r) k = ix2 r k := by
  funext a
  match a with
  | ⟨0, _⟩ => exact Fin.ext rfl
  | ⟨1, _⟩ => exact Fin.ext rfl

/-- The largest entry of row r, guarded by minus infinity on both sides. -/
private theorem rowMax_tile (q : FVec Ideal S256x1024 .f32) (h : S256x1024.Reduces [1] S256) (hφ : FKind.Formats .f32)
    (hacc : (0xFF800000#32 : BitVec 32) = FKind.maximumf.neutral .f32 hφ) (r : Fin 256) :
    max negInf (multiReduction .maximumf [1] S256 q 0xFF800000#32 h hφ hacc (ix1 r)) = rowMax (fun k => q (ix2 r k)) := by
  have e : (q ∘ h.lift (ix1 r)) = fun k : Fin 1024 => q (ix2 r k) := funext fun k => congrArg q (lift_row h r k)
  refine (congrArg (max negInf) (Ideal.multiReduction_maximumf_single q _ h hφ hacc (ix1 r))).trans ?_
  exact congrArg (fun f : Fin 1024 → EReal => max negInf ((Finset.univ : Finset (Fin 1024)).fold max negInf f)) e

/-- The sum of row r. -/
private theorem rowSum_tile (e : FVec Ideal S256x1024 .f32) (h : S256x1024.Reduces [1] S256) (hφ : FKind.Formats .f32)
    (hacc : (0x00000000#32 : BitVec 32) = FKind.add.neutral .f32 hφ) (r : Fin 256) :
    multiReduction .add [1] S256 e 0x00000000#32 h hφ hacc (ix1 r) = ∑ k : Fin 1024, e (ix2 r k) := by
  refine (Ideal.multiReduction_add_single e _ h hφ hacc (ix1 r)).trans ?_
  exact Finset.sum_congr rfl fun k _ => congrArg e (lift_row h r k)

/-- The guarded row maximum, spread back over the row, is the row's maximum at every column. -/
private theorem rowMax_bcast (q : FVec Ideal S256x1024 .f32) (h : S256x1024.Reduces [1] S256) (hφ : FKind.Formats .f32)
    (hacc : (0xFF800000#32 : BitVec 32) = FKind.maximumf.neutral .f32 hφ) (h1 : S256.ShapeCasts S256x1)
    (h2 : S256x1.Broadcasts S256x1024) (r : Fin 256) (j : Fin 1024) :
    broadcastTo S256x1024 (shapeCast S256x1 (maximumf (broadcast S256 (Scalar.ofBits (F := Ideal) .f32 0xFF800000#32))
      (multiReduction .maximumf [1] S256 q 0xFF800000#32 h hφ hacc)) h1) h2 (ix2 r j) = rowMax (fun k => q (ix2 r k)) :=
  (col_tile _ h1 h2 r j).trans (rowMax_tile q h hφ hacc r)

/-- The keys' (values', queries') tile: a linear map of the tile's rows. -/
theorem pay5_apply (x : Vec Ideal S256x1024 .f32) (w : Vec Ideal S1024x1024 .bf16) (b : Vec Ideal S1024 .f32)
    (r : Fin 256) (j : Fin 1024) : k0_pay5 (F := Ideal) x w b (ix2 r j) = lin x w b r j := by
  unfold k0_pay5 k0_pay4 lin
  simp only [shapeCast_self]
  refine (addf_apply _ _ _).trans ?_
  rw [mm_tile, bias_tile]
  rfl

theorem pay6_apply (x : Vec Ideal S256x1024 .f32) (w : Vec Ideal S1024x1024 .bf16) (b : Vec Ideal S1024 .f32)
    (r : Fin 256) (j : Fin 1024) : k0_pay6 (F := Ideal) x w b (ix2 r j) = lin x w b r j := by
  unfold k0_pay6 k0_pay4 lin
  simp only [shapeCast_self]
  refine (addf_apply _ _ _).trans ?_
  rw [mm_tile, bias_tile]
  rfl

theorem pay7_apply (x : Vec Ideal S256x1024 .f32) (w : Vec Ideal S1024x1024 .bf16) (b : Vec Ideal S1024 .f32)
    (r : Fin 256) (j : Fin 1024) : k0_pay7 (F := Ideal) x w b (ix2 r j) = lin x w b r j := by
  unfold k0_pay7 k0_pay4 lin
  simp only [shapeCast_self]
  refine (addf_apply _ _ _).trans ?_
  rw [mm_tile, bias_tile]
  rfl

/-- The learning-rate logits' tile (128 columns, of which only column 0 is used). -/
theorem pay8_apply (x : Vec Ideal S256x1024 .f32) (w : Vec Ideal S1024x128 .bf16) (b : Vec Ideal S128 .f32)
    (r : Fin 256) (j : Fin 128) : k0_pay8 (F := Ideal) x w b (ix2 r j) = lin x w b r j := by
  unfold k0_pay8 k0_pay4 lin
  simp only [shapeCast_self]
  refine (addf_apply _ _ _).trans ?_
  rw [mm_lr, bias_lr]
  rfl

/-- The softmax of a tile's rows. -/
theorem pay9_apply (q : FVec Ideal S256x1024 .f32) (r : Fin 256) (j : Fin 1024) :
    k0_pay9 (F := Ideal) q (ix2 r j) = softmax (fun k => q (ix2 r k)) j := by
  unfold k0_pay9 softmax
  refine (divf_apply _ _ _).trans ?_
  refine congrArg₂ Ideal.div ?_ ?_
  · exact congrArg (fun m => Ideal.exp (q (ix2 r j) - m)) (rowMax_bcast q _ _ _ _ _ r j)
  · refine (col_tile _ _ _ r j).trans ((rowSum_tile _ _ _ _ r).trans (Finset.sum_congr rfl fun k _ => ?_))
    exact congrArg (fun m => Ideal.exp (q (ix2 r k) - m)) (rowMax_bcast q _ _ _ _ _ r k)

/-- The factors' positions for the rank update: at entry (o, h) and row q the left factor is read at (q, o) and the right
    factor at (q, h); one coordinate per lemma. -/
private theorem mm_upd_l0 (i : S1024x1024.Idx) (q : dot_S256x1024_S256x1024_S1024x1024_0_0_1_1_n_n.contr.Idx) : (dot_S256x1024_S256x1024_S1024x1024_0_0_1_1_n_n.lhsIdx i q 0).val = (q ⟨0, by decide⟩).val :=
  dot_S256x1024_S256x1024_S1024x1024_0_0_1_1_n_n.lhsIdx_val_of_single rfl i q
private theorem mm_upd_l1 (i : S1024x1024.Idx) (q : dot_S256x1024_S256x1024_S1024x1024_0_0_1_1_n_n.contr.Idx) : (dot_S256x1024_S256x1024_S1024x1024_0_0_1_1_n_n.lhsIdx i q 1).val = (i 0).val := by
  unfold DotDims.lhsIdx
  rw [dif_neg (show ¬(1 : Fin S256x1024.rank) ∈ dot_S256x1024_S256x1024_S1024x1024_0_0_1_1_n_n.lhsBatch by decide), dif_pos (show (1 : Fin S256x1024.rank) ∈ dot_S256x1024_S256x1024_S1024x1024_0_0_1_1_n_n.lhsNonContracting by decide)]
  rfl
private theorem mm_upd_r0 (i : S1024x1024.Idx) (q : dot_S256x1024_S256x1024_S1024x1024_0_0_1_1_n_n.contr.Idx) : (dot_S256x1024_S256x1024_S1024x1024_0_0_1_1_n_n.rhsIdx i q 0).val = (q ⟨0, by decide⟩).val :=
  dot_S256x1024_S256x1024_S1024x1024_0_0_1_1_n_n.rhsIdx_val_of_single rfl i q
private theorem mm_upd_r1 (i : S1024x1024.Idx) (q : dot_S256x1024_S256x1024_S1024x1024_0_0_1_1_n_n.contr.Idx) : (dot_S256x1024_S256x1024_S1024x1024_0_0_1_1_n_n.rhsIdx i q 1).val = (i 1).val := by
  unfold DotDims.rhsIdx
  rw [dif_neg (show ¬(1 : Fin S256x1024.rank) ∈ dot_S256x1024_S256x1024_S1024x1024_0_0_1_1_n_n.rhsBatch by decide), dif_pos (show (1 : Fin S256x1024.rank) ∈ dot_S256x1024_S256x1024_S1024x1024_0_0_1_1_n_n.rhsNonContracting by decide)]
  rfl
/-- The rank update: two tiles of 256 rows multiplied along the rows and accumulated from zero; entry (o, h) is the sum
    over the tile's 256 rows of the first factor at (r, o) times the second at (r, h). -/
private theorem mm_upd {φ₁ φ₂ : FTy} (a : FVec Ideal S256x1024 φ₁) (b : FVec Ideal S256x1024 φ₂) (o h : Fin 1024) :
    matmul dot_S256x1024_S256x1024_S1024x1024_0_0_1_1_n_n none a b (constant S1024x1024 .f32 0x00000000#32) (ix2 o h) = ∑ r : Fin 256, a (ix2 r o) * b (ix2 r h) := by
  simp only [matmul]
  rw [Ideal.matmul_constant_zero_apply, ← Equiv.sum_comp (contrEquiv1 dot_S256x1024_S256x1024_S1024x1024_0_0_1_1_n_n 256 rfl rfl).symm]
  refine Finset.sum_congr rfl fun k _ => ?_
  have hk := contrEquiv1_symm_val dot_S256x1024_S256x1024_S1024x1024_0_0_1_1_n_n 256 rfl rfl k
  have el : dot_S256x1024_S256x1024_S1024x1024_0_0_1_1_n_n.lhsIdx (ix2 o h) ((contrEquiv1 dot_S256x1024_S256x1024_S1024x1024_0_0_1_1_n_n 256 rfl rfl).symm k) = ix2 k o := funext fun a => Fin.ext (by
    match a with
    | ⟨0, _⟩ => exact (mm_upd_l0 _ _).trans hk
    | ⟨1, _⟩ => exact mm_upd_l1 _ _)
  have er : dot_S256x1024_S256x1024_S1024x1024_0_0_1_1_n_n.rhsIdx (ix2 o h) ((contrEquiv1 dot_S256x1024_S256x1024_S1024x1024_0_0_1_1_n_n 256 rfl rfl).symm k) = ix2 k h := funext fun a => Fin.ext (by
    match a with
    | ⟨0, _⟩ => exact (mm_upd_r0 _ _).trans hk
    | ⟨1, _⟩ => exact mm_upd_r1 _ _)
  rw [el, er]

/-- Column 0 of the learning-rate logits through the sigmoid, spread over the row: at (r, o) it is sigmoid(l(r, 0)). -/
private theorem gate_bcast (l : FVec Ideal S256x128 .f32) (hs : S256x128.Slices ![0, 0] S256x1)
    (h2 : S256x1.Broadcasts S256x1024) (r : Fin 256) (o : Fin 1024) :
    broadcastTo S256x1024 (logistic (extractStridedSlice S256x1 ![0, 0] l hs)) h2 (ix2 r o)
      = Ideal.logistic (l (ix2 r (0 : Fin 128))) := by
  refine (broadcastTo_apply _ h2 (ix2 r o) (ix2 r (0 : Fin 1)) (fun a => ?_)).trans ?_
  · match a with
    | ⟨0, _⟩ => show r.val = if (256 : Nat) = 1 then 0 else r.val; rw [if_neg (by decide)]
    | ⟨1, _⟩ => show 0 = if (1 : Nat) = 1 then 0 else o.val; rw [if_pos rfl]
  · show Ideal.logistic (extractStridedSlice S256x1 ![0, 0] l hs (ix2 r (0 : Fin 1))) = _
    refine congrArg Ideal.logistic (extractStridedSlice_apply ![0, 0] l hs (ix2 r (0 : Fin 1)) (ix2 r (0 : Fin 128)) (fun a => ?_))
    match a with
    | ⟨0, _⟩ => show r.val = 0 + r.val; omega
    | ⟨1, _⟩ => show 0 = 0 + 0; rfl
/-- The tile's share of the update, added to the running memory. -/
theorem pay10_apply (k v : FVec Ideal S256x1024 .f32) (l : FVec Ideal S256x128 .f32) (wf : Vec Ideal S1024x1024 .bf16)
    (bf : Vec Ideal S1024 .f32) (acc : Vec Ideal S1x1024x1024 .f32) (o h : Fin 1024) :
    k0_pay10 (F := Ideal) k v l wf bf acc (ix2 o h)
      = acc (ix3 (0 : Fin 1) o h) + ∑ r : Fin 256,
          ((Ideal.logistic (l (ix2 r (0 : Fin 128)))
            * (v (ix2 r o) - (∑ h' : Fin 1024, softmax (fun j => k (ix2 r j)) h' * wf (ix2 h' o) + bf (ix1 o)))) * invB)
          * Ideal.logistic (k (ix2 r h)) := by
  unfold k0_pay10
  simp only [shapeCast_self]
  refine (addf_apply _ _ _).trans ?_
  refine congrArg₂ (· + ·) ?_ ?_
  · refine (shapeCast_dropUnit_apply ![1024, 1024] acc _ (ix2 o h)).trans (congrArg acc ?_)
    funext a
    match a with
    | ⟨0, _⟩ => rfl
    | ⟨1, _⟩ => rfl
    | ⟨2, _⟩ => rfl
  · refine (mm_upd (φ₁ := .bf16) (φ₂ := .bf16) _ _ o h).trans (Finset.sum_congr rfl fun r _ => ?_)
    refine congrArg₂ (· * ·) (congrArg₂ (· * ·) (congrArg₂ (· * ·) ?_ (congrArg (v (ix2 r o) - ·) (congrArg₂ (· + ·) ?_ ?_))) rfl) rfl
    · exact gate_bcast l _ _ r o
    · exact (mm_tile (φ₁ := .bf16) (φ₂ := .bf16) _ wf r o).trans
        (Finset.sum_congr rfl fun h' _ => congrArg (· * wf (ix2 h' o)) (pay9_apply k r h'))
    · exact bias_tile bf _ _ r o

/-- Adding the unit axis back in front of the memory. -/
theorem pay1_apply (d : FVec Ideal S1024x1024 .f32) (o h : Fin 1024) :
    k0_pay1 (F := Ideal) d (ix3 (0 : Fin 1) o h) = d (ix2 o h) := by
  unfold k0_pay1
  refine (shapeCast_addUnit_apply ![1024, 1024] d _ (ix3 (0 : Fin 1) o h)).trans (congrArg d ?_)
  funext a
  match a with
  | ⟨0, _⟩ => rfl
  | ⟨1, _⟩ => rfl

/-- A change of float format is the identity. -/
theorem pay2_eq (s : FVec Ideal S256x1024 .f32) : k0_pay2 (F := Ideal) s = s := by
  unfold k0_pay2
  rfl

/-- The reset value of the running memory is zero. -/
theorem pay3_apply (y : S1x1024x1024.Idx) : k0_pay3 (F := Ideal) y = 0 := by
  unfold k0_pay3
  show Ideal.ofBits .f32 0x00000000#32 = 0
  exact Ideal.ofBits_zero_f32

/-- The second body: a linear map of 512 rows. -/
theorem k1_pay1_apply (s : Vec Ideal S512x1024 .bf16) (w : Vec Ideal S1024x1024 .bf16) (b : Vec Ideal S1024 .f32)
    (r : Fin 512) (o : Fin 1024) : k1_pay1 (F := Ideal) s w b (ix2 r o) = lin s w b r o := by
  unfold k1_pay1 lin
  simp only [shapeCast_self]
  refine (addf_apply _ _ _).trans ?_
  rw [mm_out, bias_out]

end Cert.FastWeights.Body

end
-- ==== Proof.Blocks.lean ====
/-
  What each window of the two kernel regions reads, entry by entry, in terms of the program's arguments.

  Before the first region the program only re-lays the arguments: the slow weights are cut into the key, value, query
  and learning-rate rows and transposed (so entry (i, j) of a piece is entry (j + offset, i) of W), the slow bias is cut
  the same way, the one learning-rate row and its bias entry are padded with zeros to 128 columns, the fast weights are
  transposed; changes of float format are the identity.  The batch is read 256 rows at a time: tile t holds rows
  256 t … 256 t + 255.  Between the regions the two per-half partial updates are added (from zero) to the fast weights
  and the sum is transposed; the second region reads the softmax rows 512 at a time.
-/
import proofs.«103471_j34668976013857_2_alg».proof.Proof.Spec
import proofs.«103471_j34668976013857_2_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run
import Idealize.ShloMosaic.PureOps.Ideal.Laws
import Idealize.ShloMosaic.Lib.IdealHost

set_option maxRecDepth 16384

noncomputable section

open scoped BigOperators

namespace Cert.FastWeights.Blocks

open Cert.KernelIdeal Cert.KernelIdeal.Gen Idealize.ShloMosaic Idealize.ShloMosaic.ValueIdx Idealize.ShloMosaic.TcCoe
open Idealize.SL.Sem Idealize.ShloMosaic.Pipeline Cert.FastWeights

variable (m : (ℓ : Loc nD τ sig) → Buf (Elt Ideal) ℓ) (ρ : Dev nD → PrngReg)

/-- The five arguments as launched. -/
abbrev aX (c : Dev nD) : AX := m ((c : Thread nD τ).loc main_arg0)
abbrev aW (c : Dev nD) : AW := m ((c : Thread nD τ).loc main_arg1)
abbrev aB (c : Dev nD) : AB := m ((c : Thread nD τ).loc main_arg2)
abbrev aF (c : Dev nD) : AF := m ((c : Thread nD τ).loc main_arg3)
abbrev aG (c : Dev nD) : AG := m ((c : Thread nD τ).loc main_arg4)

/-- Row rr of the first region's tile at point t, and of the second region's. -/
def row0 (t : Fin cfg0.N) (rr : Fin 256) : Fin 16384 :=
  ⟨t.val * 256 + rr.val, by have h64 : cfg0.N = 64 := N_0; have := t.isLt; have := rr.isLt; omega⟩
def row1 (t : Fin cfg1.N) (rr : Fin 512) : Fin 16384 :=
  ⟨t.val * 512 + rr.val, by have h32 : cfg1.N = 32 := N_1; have := t.isLt; have := rr.isLt; omega⟩

/-- What the first region's two outputs end holding: the per-half partial updates, and the softmax rows. -/
abbrev parts (c : Dev nD) : Vec Ideal S2x1024x1024 .f32 := (dat0 (V1 m ρ) c).arrAt 11 cfg0.N
abbrev smq (c : Dev nD) : Vec Ideal S16384x1024 .bf16 := (dat0 (V1 m ρ) c).arrAt 12 cfg0.N

/-! ## The first region's windows -/

/-! ### Where each window's block sits: the block index at a point

The batch window's block index is the point's number on the rows; every other input window of the first region is its
whole array, block index 0 on every axis. -/

theorem idx0_0 : ∀ t : Fin cfg0.N, win0_0.index t (0 : Fin 2) = t.val ∧ win0_0.index t 1 = 0 :=
  (by decide +kernel : ∀ t : Fin grid0.N, _)
theorem idx0_1 : ∀ t : Fin cfg0.N, win0_1.index t (0 : Fin 2) = 0 ∧ win0_1.index t 1 = 0 :=
  (by decide +kernel : ∀ t : Fin grid0.N, _)
theorem idx0_2 : ∀ t : Fin cfg0.N, win0_2.index t (0 : Fin 2) = 0 ∧ win0_2.index t 1 = 0 :=
  (by decide +kernel : ∀ t : Fin grid0.N, _)
theorem idx0_3 : ∀ t : Fin cfg0.N, win0_3.index t (0 : Fin 2) = 0 ∧ win0_3.index t 1 = 0 :=
  (by decide +kernel : ∀ t : Fin grid0.N, _)
theorem idx0_4 : ∀ t : Fin cfg0.N, win0_4.index t (0 : Fin 2) = 0 ∧ win0_4.index t 1 = 0 :=
  (by decide +kernel : ∀ t : Fin grid0.N, _)
theorem idx0_5 : ∀ t : Fin cfg0.N, win0_5.index t (0 : Fin 1) = 0 :=
  (by decide +kernel : ∀ t : Fin grid0.N, _)
theorem idx0_6 : ∀ t : Fin cfg0.N, win0_6.index t (0 : Fin 1) = 0 :=
  (by decide +kernel : ∀ t : Fin grid0.N, _)
theorem idx0_7 : ∀ t : Fin cfg0.N, win0_7.index t (0 : Fin 1) = 0 :=
  (by decide +kernel : ∀ t : Fin grid0.N, _)
theorem idx0_8 : ∀ t : Fin cfg0.N, win0_8.index t (0 : Fin 1) = 0 :=
  (by decide +kernel : ∀ t : Fin grid0.N, _)
theorem idx0_9 : ∀ t : Fin cfg0.N, win0_9.index t (0 : Fin 2) = 0 ∧ win0_9.index t 1 = 0 :=
  (by decide +kernel : ∀ t : Fin grid0.N, _)
theorem idx0_10 : ∀ t : Fin cfg0.N, win0_10.index t (0 : Fin 1) = 0 :=
  (by decide +kernel : ∀ t : Fin grid0.N, _)

/-! ### What the first region finds in each array

No operation before the first region writes the batch or the fast bias; the other arrays are slices of the slow
weights and bias, transposed where they are matrices, the change of float format the identity. -/

theorem V1_arg0 (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem V1_arg4 (c : Dev nD) : V1 m ρ c main_arg4 = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem V1_v13 (c : Dev nD) : @Eq (S1024x1024.Idx → EReal) (V1 m ρ c main_v13)
    (truncf (F := Ideal) .bf16 (transpose S1024x1024 [1, 0]
      (extractStridedSlice S1024x1024 ![0, 0] (aW m c) slices_S3073x1024_S1024x1024_0_0)
      transposes_S1024x1024_S1024x1024_1_0) bitsLt_bf16_f32) := by
  dsimp only [V1, W1, hostOps0]
  after_results

theorem V1_v15 (c : Dev nD) : @Eq (S1024x1024.Idx → EReal) (V1 m ρ c main_v15)
    (truncf (F := Ideal) .bf16 (transpose S1024x1024 [1, 0]
      (extractStridedSlice S1024x1024 ![1024, 0] (aW m c) slices_S3073x1024_S1024x1024_1024_0)
      transposes_S1024x1024_S1024x1024_1_0) bitsLt_bf16_f32) := by
  dsimp only [V1, W1, hostOps0]
  after_results

theorem V1_v17 (c : Dev nD) : @Eq (S1024x1024.Idx → EReal) (V1 m ρ c main_v17)
    (truncf (F := Ideal) .bf16 (transpose S1024x1024 [1, 0]
      (extractStridedSlice S1024x1024 ![2048, 0] (aW m c) slices_S3073x1024_S1024x1024_2048_0)
      transposes_S1024x1024_S1024x1024_1_0) bitsLt_bf16_f32) := by
  dsimp only [V1, W1, hostOps0]
  after_results

theorem V1_v4 (c : Dev nD) : @Eq (S1024.Idx → EReal) (V1 m ρ c main_v4)
    (extractStridedSlice S1024 ![0] (aB m c) slices_S3073_S1024_0) := by
  dsimp only [V1, W1, hostOps0]
  after_results

theorem V1_v5 (c : Dev nD) : @Eq (S1024.Idx → EReal) (V1 m ρ c main_v5)
    (extractStridedSlice S1024 ![1024] (aB m c) slices_S3073_S1024_1024) := by
  dsimp only [V1, W1, hostOps0]
  after_results

theorem V1_v6 (c : Dev nD) : @Eq (S1024.Idx → EReal) (V1 m ρ c main_v6)
    (extractStridedSlice S1024 ![2048] (aB m c) slices_S3073_S1024_2048) := by
  dsimp only [V1, W1, hostOps0]
  after_results

theorem V1_v21 (c : Dev nD) : @Eq (S1024x1024.Idx → EReal) (V1 m ρ c main_v21)
    (truncf (F := Ideal) .bf16 (transpose S1024x1024 [1, 0] (aF m c) transposes_S1024x1024_S1024x1024_1_0)
      bitsLt_bf16_f32) := by
  dsimp only [V1, W1, hostOps0]
  after_results

theorem V1_v11 (c : Dev nD) : @Eq (S128.Idx → EReal) (V1 m ρ c main_v11)
    (concatenate S128 0 [⟨S1, extractStridedSlice S1 ![3072] (aB m c) slices_S3073_S1_3072⟩,
      ⟨S127, broadcastInDim S127 ![] bcast_S_S127 (constant (F := Ideal) S_ .f32 0x00000000#32)⟩]
      concatenates_S1_S127_S128_d0) := by
  dsimp only [V1, W1, hostOps0]
  after_results

theorem V1_v19 (c : Dev nD) : @Eq (S1024x128.Idx → EReal) (V1 m ρ c main_v19)
    (truncf (F := Ideal) .bf16 (transpose S1024x128 [1, 0]
      (concatenate S128x1024 0 [⟨S1x1024, extractStridedSlice S1x1024 ![3072, 0] (aW m c) slices_S3073x1024_S1x1024_3072_0⟩,
        ⟨S127x1024, broadcastInDim S127x1024 ![] bcast_S_S127x1024 (constant (F := Ideal) S_ .f32 0x00000000#32)⟩]
        concatenates_S1x1024_S127x1024_S128x1024_d0)
      transposes_S128x1024_S1024x128_1_0) bitsLt_bf16_f32) := by
  dsimp only [V1, W1, hostOps0]
  after_results

/-! ### The windows, entry by entry -/

theorem blk0_0 (c : Dev nD) (t : Fin cfg0.N) (rr : Fin 256) (i : Fin 1024) :
    (iblk0 (V1 m ρ) c 0 t : Vec Ideal S256x1024 .f32) (ix2 rr i) = aX m c (ix2 (row0 t rr) i) := by
  have hi := idx0_0 t
  unfold iblk0
  rw [View.read_apply]
  show V1 m ρ c main_arg0 _ = _
  rw [V1_arg0]
  refine congrArg (m ((c : Thread nD τ).loc main_arg0)) (funext fun a => Fin.ext ?_)
  match a with
  | ⟨0, _⟩ => show win0_0.index t 0 * 256 + 1 * rr.val = t.val * 256 + rr.val; rw [hi.1]; omega
  | ⟨1, _⟩ => show win0_0.index t 1 * 1024 + 1 * i.val = i.val; rw [hi.2]; omega

theorem blk0_1 (c : Dev nD) (t : Fin cfg0.N) (i j : Fin 1024) :
    (iblk0 (V1 m ρ) c 1 t : Vec Ideal S1024x1024 .bf16) (ix2 i j) = aW m c (ix2 (colK j) i) := by
  have hi := idx0_1 t
  unfold iblk0
  rw [View.read_apply]
  show V1 m ρ c main_v13 _ = _
  have he : ((cfg0.win 1).blk t).view.emb (ix2 i j) = (ix2 i j : S1024x1024.Idx) := funext fun a => Fin.ext (by
    match a with
    | ⟨0, _⟩ => show win0_1.index t 0 * 1024 + 1 * i.val = i.val; rw [hi.1]; omega
    | ⟨1, _⟩ => show win0_1.index t 1 * 1024 + 1 * j.val = j.val; rw [hi.2]; omega)
  rw [he, V1_v13]
  refine (truncf_apply (φ := .f32) _ bitsLt_bf16_f32 (ix2 i j)).trans ?_
  refine (transpose_apply [1, 0] _ transposes_S1024x1024_S1024x1024_1_0 (ix2 i j) (ix2 j i) (fun b => match b with
    | ⟨0, _⟩ => rfl
    | ⟨1, _⟩ => rfl)).trans ?_
  exact extractStridedSlice_apply ![0, 0] (aW m c) slices_S3073x1024_S1024x1024_0_0 (ix2 j i) (ix2 (colK j) i) (fun a => match a with
    | ⟨0, _⟩ => by show j.val = 0 + j.val; omega
    | ⟨1, _⟩ => by show i.val = 0 + i.val; omega)

theorem blk0_2 (c : Dev nD) (t : Fin cfg0.N) (i j : Fin 1024) :
    (iblk0 (V1 m ρ) c 2 t : Vec Ideal S1024x1024 .bf16) (ix2 i j) = aW m c (ix2 (colV j) i) := by
  have hi := idx0_2 t
  unfold iblk0
  rw [View.read_apply]
  show V1 m ρ c main_v15 _ = _
  have he : ((cfg0.win 2).blk t).view.emb (ix2 i j) = (ix2 i j : S1024x1024.Idx) := funext fun a => Fin.ext (by
    match a with
    | ⟨0, _⟩ => show win0_2.index t 0 * 1024 + 1 * i.val = i.val; rw [hi.1]; omega
    | ⟨1, _⟩ => show win0_2.index t 1 * 1024 + 1 * j.val = j.val; rw [hi.2]; omega)
  rw [he, V1_v15]
  refine (truncf_apply (φ := .f32) _ bitsLt_bf16_f32 (ix2 i j)).trans ?_
  refine (transpose_apply [1, 0] _ transposes_S1024x1024_S1024x1024_1_0 (ix2 i j) (ix2 j i) (fun b => match b with
    | ⟨0, _⟩ => rfl
    | ⟨1, _⟩ => rfl)).trans ?_
  exact extractStridedSlice_apply ![1024, 0] (aW m c) slices_S3073x1024_S1024x1024_1024_0 (ix2 j i) (ix2 (colV j) i) (fun a => match a with
    | ⟨0, _⟩ => by show 1024 + j.val = 1024 + j.val; rfl
    | ⟨1, _⟩ => by show i.val = 0 + i.val; omega)

theorem blk0_3 (c : Dev nD) (t : Fin cfg0.N) (i j : Fin 1024) :
    (iblk0 (V1 m ρ) c 3 t : Vec Ideal S1024x1024 .bf16) (ix2 i j) = aW m c (ix2 (colQ j) i) := by
  have hi := idx0_3 t
  unfold iblk0
  rw [View.read_apply]
  show V1 m ρ c main_v17 _ = _
  have he : ((cfg0.win 3).blk t).view.emb (ix2 i j) = (ix2 i j : S1024x1024.Idx) := funext fun a => Fin.ext (by
    match a with
    | ⟨0, _⟩ => show win0_3.index t 0 * 1024 + 1 * i.val = i.val; rw [hi.1]; omega
    | ⟨1, _⟩ => show win0_3.index t 1 * 1024 + 1 * j.val = j.val; rw [hi.2]; omega)
  rw [he, V1_v17]
  refine (truncf_apply (φ := .f32) _ bitsLt_bf16_f32 (ix2 i j)).trans ?_
  refine (transpose_apply [1, 0] _ transposes_S1024x1024_S1024x1024_1_0 (ix2 i j) (ix2 j i) (fun b => match b with
    | ⟨0, _⟩ => rfl
    | ⟨1, _⟩ => rfl)).trans ?_
  exact extractStridedSlice_apply ![2048, 0] (aW m c) slices_S3073x1024_S1024x1024_2048_0 (ix2 j i) (ix2 (colQ j) i) (fun a => match a with
    | ⟨0, _⟩ => by show 2048 + j.val = 2048 + j.val; rfl
    | ⟨1, _⟩ => by show i.val = 0 + i.val; omega)

theorem blk0_4 (c : Dev nD) (t : Fin cfg0.N) (i : Fin 1024) :
    (iblk0 (V1 m ρ) c 4 t : Vec Ideal S1024x128 .bf16) (ix2 i (0 : Fin 128)) = aW m c (ix2 colL i) := by
  have hi := idx0_4 t
  unfold iblk0
  rw [View.read_apply]
  show V1 m ρ c main_v19 _ = _
  have he : ((cfg0.win 4).blk t).view.emb (ix2 i (0 : Fin 128)) = (ix2 i (0 : Fin 128) : S1024x128.Idx) := funext fun a => Fin.ext (by
    match a with
    | ⟨0, _⟩ => show win0_4.index t 0 * 1024 + 1 * i.val = i.val; rw [hi.1]; omega
    | ⟨1, _⟩ => show win0_4.index t 1 * 128 + 1 * 0 = 0; rw [hi.2])
  rw [he, V1_v19]
  refine (truncf_apply (φ := .f32) _ bitsLt_bf16_f32 (ix2 i (0 : Fin 128))).trans ?_
  refine (transpose_apply [1, 0] _ transposes_S128x1024_S1024x128_1_0 (ix2 i (0 : Fin 128)) (ix2 (0 : Fin 128) i) (fun b => match b with
    | ⟨0, _⟩ => rfl
    | ⟨1, _⟩ => rfl)).trans ?_
  refine (concatenate_pair_apply_left (t := S128x1024) (s₁ := S1x1024) (s₂ := S127x1024) (0 : Fin 2) _ _ concatenates_S1x1024_S127x1024_S128x1024_d0 (ix2 (0 : Fin 128) i) rfl (ix2 (0 : Fin 1) i)
    (fun b => match b with | ⟨0, _⟩ => rfl | ⟨1, _⟩ => rfl)).trans ?_
  exact extractStridedSlice_apply ![3072, 0] (aW m c) slices_S3073x1024_S1x1024_3072_0 (ix2 (0 : Fin 1) i) (ix2 colL i) (fun a => match a with
    | ⟨0, _⟩ => by show 3072 = 3072 + 0; rfl
    | ⟨1, _⟩ => by show i.val = 0 + i.val; omega)

theorem blk0_5 (c : Dev nD) (t : Fin cfg0.N) (j : Fin 1024) :
    (iblk0 (V1 m ρ) c 5 t : Vec Ideal S1024 .f32) (ix1 j) = aB m c (ix1 (colK j)) := by
  have hi := idx0_5 t
  unfold iblk0
  rw [View.read_apply]
  show V1 m ρ c main_v4 _ = _
  have he : ((cfg0.win 5).blk t).view.emb (ix1 j) = (ix1 j : S1024.Idx) := funext fun a => Fin.ext (by
    match a with
    | ⟨0, _⟩ => show win0_5.index t 0 * 1024 + 1 * j.val = j.val; rw [hi]; omega)
  rw [he, V1_v4]
  exact extractStridedSlice_apply ![0] (aB m c) slices_S3073_S1024_0 (ix1 j) (ix1 (colK j)) (fun a => match a with
    | ⟨0, _⟩ => by show j.val = 0 + j.val; omega)

theorem blk0_6 (c : Dev nD) (t : Fin cfg0.N) (j : Fin 1024) :
    (iblk0 (V1 m ρ) c 6 t : Vec Ideal S1024 .f32) (ix1 j) = aB m c (ix1 (colV j)) := by
  have hi := idx0_6 t
  unfold iblk0
  rw [View.read_apply]
  show V1 m ρ c main_v5 _ = _
  have he : ((cfg0.win 6).blk t).view.emb (ix1 j) = (ix1 j : S1024.Idx) := funext fun a => Fin.ext (by
    match a with
    | ⟨0, _⟩ => show win0_6.index t 0 * 1024 + 1 * j.val = j.val; rw [hi]; omega)
  rw [he, V1_v5]
  exact extractStridedSlice_apply ![1024] (aB m c) slices_S3073_S1024_1024 (ix1 j) (ix1 (colV j)) (fun a => match a with
    | ⟨0, _⟩ => by show 1024 + j.val = 1024 + j.val; rfl)

theorem blk0_7 (c : Dev nD) (t : Fin cfg0.N) (j : Fin 1024) :
    (iblk0 (V1 m ρ) c 7 t : Vec Ideal S1024 .f32) (ix1 j) = aB m c (ix1 (colQ j)) := by
  have hi := idx0_7 t
  unfold iblk0
  rw [View.read_apply]
  show V1 m ρ c main_v6 _ = _
  have he : ((cfg0.win 7).blk t).view.emb (ix1 j) = (ix1 j : S1024.Idx) := funext fun a => Fin.ext (by
    match a with
    | ⟨0, _⟩ => show win0_7.index t 0 * 1024 + 1 * j.val = j.val; rw [hi]; omega)
  rw [he, V1_v6]
  exact extractStridedSlice_apply ![2048] (aB m c) slices_S3073_S1024_2048 (ix1 j) (ix1 (colQ j)) (fun a => match a with
    | ⟨0, _⟩ => by show 2048 + j.val = 2048 + j.val; rfl)

theorem blk0_8 (c : Dev nD) (t : Fin cfg0.N) :
    (iblk0 (V1 m ρ) c 8 t : Vec Ideal S128 .f32) (ix1 (0 : Fin 128)) = aB m c (ix1 colL) := by
  have hi := idx0_8 t
  unfold iblk0
  rw [View.read_apply]
  show V1 m ρ c main_v11 _ = _
  have he : ((cfg0.win 8).blk t).view.emb (ix1 (0 : Fin 128)) = (ix1 (0 : Fin 128) : S128.Idx) := funext fun a => Fin.ext (by
    match a with
    | ⟨0, _⟩ => show win0_8.index t 0 * 128 + 1 * 0 = 0; rw [hi])
  rw [he, V1_v11]
  refine (concatenate_pair_apply_left (t := S128) (s₁ := S1) (s₂ := S127) (0 : Fin 1) _ _ concatenates_S1_S127_S128_d0 (ix1 (0 : Fin 128)) rfl (ix1 (0 : Fin 1))
    (fun b => match b with | ⟨0, _⟩ => rfl)).trans ?_
  exact extractStridedSlice_apply ![3072] (aB m c) slices_S3073_S1_3072 (ix1 (0 : Fin 1)) (ix1 colL) (fun a => match a with
    | ⟨0, _⟩ => by show 3072 = 3072 + 0; rfl)

theorem blk0_9 (c : Dev nD) (t : Fin cfg0.N) (h o : Fin 1024) :
    (iblk0 (V1 m ρ) c 9 t : Vec Ideal S1024x1024 .bf16) (ix2 h o) = aF m c (ix2 o h) := by
  have hi := idx0_9 t
  unfold iblk0
  rw [View.read_apply]
  show V1 m ρ c main_v21 _ = _
  have he : ((cfg0.win 9).blk t).view.emb (ix2 h o) = (ix2 h o : S1024x1024.Idx) := funext fun a => Fin.ext (by
    match a with
    | ⟨0, _⟩ => show win0_9.index t 0 * 1024 + 1 * h.val = h.val; rw [hi.1]; omega
    | ⟨1, _⟩ => show win0_9.index t 1 * 1024 + 1 * o.val = o.val; rw [hi.2]; omega)
  rw [he, V1_v21]
  refine (truncf_apply (φ := .f32) _ bitsLt_bf16_f32 (ix2 h o)).trans ?_
  exact transpose_apply [1, 0] (aF m c) transposes_S1024x1024_S1024x1024_1_0 (ix2 h o) (ix2 o h) (fun b => match b with
    | ⟨0, _⟩ => rfl
    | ⟨1, _⟩ => rfl)

theorem blk0_10 (c : Dev nD) (t : Fin cfg0.N) (o : Fin 1024) :
    (iblk0 (V1 m ρ) c 10 t : Vec Ideal S1024 .f32) (ix1 o) = aG m c (ix1 o) := by
  have hi := idx0_10 t
  unfold iblk0
  rw [View.read_apply]
  show V1 m ρ c main_arg4 _ = _
  rw [V1_arg4]
  refine congrArg (m ((c : Thread nD τ).loc main_arg4)) (funext fun a => Fin.ext ?_)
  match a with
  | ⟨0, _⟩ => show win0_10.index t 0 * 1024 + 1 * o.val = o.val; rw [hi]; omega

/-! ## The second region's windows -/

/-! ### Where each window's block sits

The softmax rows are read 512 at a time, block index the point's number on the rows; the other two input windows are
their whole arrays. -/

theorem idx1_0 : ∀ t : Fin cfg1.N, win1_0.index t (0 : Fin 2) = t.val ∧ win1_0.index t 1 = 0 :=
  (by decide +kernel : ∀ t : Fin grid1.N, _)
theorem idx1_1 : ∀ t : Fin cfg1.N, win1_1.index t (0 : Fin 2) = 0 ∧ win1_1.index t 1 = 0 :=
  (by decide +kernel : ∀ t : Fin grid1.N, _)
theorem idx1_2 : ∀ t : Fin cfg1.N, win1_2.index t (0 : Fin 1) = 0 :=
  (by decide +kernel : ∀ t : Fin grid1.N, _)

/-! ### What the second region finds in each array

The first region leaves its two outputs at what its write-backs folded and every other array as it found it; between
the regions only the sum of the two partial updates (from the zero word), its sum with the fast weights and the
transpose of that are written. -/

theorem W2_v22_0 (c : Dev nD) : W2 m ρ c (Proc.devRef .tc main_v22_0) = parts m ρ c := W2_arr m ρ c 11
theorem W2_v22_1 (c : Dev nD) : W2 m ρ c (Proc.devRef .tc main_v22_1) = smq m ρ c := W2_arr m ρ c 12

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem V3_v22_1 (c : Dev nD) : V3 m ρ c main_v22_1 = smq m ρ c :=
  calc W3 m ρ c (Proc.devRef .tc main_v22_1)
    _ = W2 m ρ c (Proc.devRef .tc main_v22_1) := StableHlo.after_of_forall_not_mem (b := Proc.devRef .tc main_v22_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = smq m ρ c := W2_v22_1 m ρ c

theorem V3_arg4 (c : Dev nD) : V3 m ρ c main_arg4 = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 10).trans (((dat0 (V1 m ρ) c).arrAt_in 10 rfl _).trans (A_eq0 (V1 m ρ) c 10))
    _ = m ((c : Thread nD τ).loc main_arg4) := V1_arg4 m ρ c

theorem V3_v26 (c : Dev nD) : @Eq (S1024x1024.Idx → EReal) (V3 m ρ c main_v26)
    (truncf (F := Ideal) .bf16 (transpose S1024x1024 [1, 0]
      (addf (F := Ideal) (φ := .f32) (aF m c)
        (Host.reduceAdd (F := Ideal) (φ := .f32) (parts m ρ c) (constant (F := Ideal) S_ .f32 0x00000000#32)
          reducesTo_S2x1024x1024_S1024x1024_d0 h_S_))
      transposes_S1024x1024_S1024x1024_1_0) bitsLt_bf16_f32) := by
  dsimp only [V3, W3, hostOps1]
  after_results
  rw [W2_arg3, W2_v22_0]

/-! ### The windows, entry by entry -/

theorem blk1_0 (c : Dev nD) (t : Fin cfg1.N) (rr : Fin 512) (h : Fin 1024) :
    (iblk1 (V3 m ρ) c 0 t : Vec Ideal S512x1024 .bf16) (ix2 rr h) = smq m ρ c (ix2 (row1 t rr) h) := by
  have hi := idx1_0 t
  unfold iblk1
  rw [View.read_apply]
  show V3 m ρ c main_v22_1 _ = _
  rw [V3_v22_1]
  refine congrArg (smq m ρ c) (funext fun a => Fin.ext ?_)
  match a with
  | ⟨0, _⟩ => show win1_0.index t 0 * 512 + 1 * rr.val = t.val * 512 + rr.val; rw [hi.1]; omega
  | ⟨1, _⟩ => show win1_0.index t 1 * 1024 + 1 * h.val = h.val; rw [hi.2]; omega

theorem blk1_1 (c : Dev nD) (t : Fin cfg1.N) (h o : Fin 1024) :
    (iblk1 (V3 m ρ) c 1 t : Vec Ideal S1024x1024 .bf16) (ix2 h o)
      = aF m c (ix2 o h) + (Ideal.ofBits .f32 0x00000000#32 + ∑ c' : Fin 2, parts m ρ c (ix3 c' o h)) := by
  have hi := idx1_1 t
  unfold iblk1
  rw [View.read_apply]
  show V3 m ρ c main_v26 _ = _
  have he : ((cfg1.win 1).blk t).view.emb (ix2 h o) = (ix2 h o : S1024x1024.Idx) := funext fun a => Fin.ext (by
    match a with
    | ⟨0, _⟩ => show win1_1.index t 0 * 1024 + 1 * h.val = h.val; rw [hi.1]; omega
    | ⟨1, _⟩ => show win1_1.index t 1 * 1024 + 1 * o.val = o.val; rw [hi.2]; omega)
  rw [he, V3_v26]
  refine (truncf_apply (φ := .f32) _ bitsLt_bf16_f32 (ix2 h o)).trans ?_
  refine (transpose_apply [1, 0] _ transposes_S1024x1024_S1024x1024_1_0 (ix2 h o) (ix2 o h) (fun b => match b with
    | ⟨0, _⟩ => rfl
    | ⟨1, _⟩ => rfl)).trans ?_
  refine (addf_apply (φ := .f32) _ _ (ix2 o h)).trans ?_
  refine congrArg (aF m c (ix2 o h) + ·) ?_
  refine (hostReduceAdd_apply (φ := .f32) (parts m ρ c) _ reducesTo_S2x1024x1024_S1024x1024_d0 h_S_ (ix2 o h)).trans ?_
  have hR : S2x1024x1024.Reduces [0] S1024x1024 := by decide
  refine (Ideal.hostReduceAdd_single reducesTo_S2x1024x1024_S1024x1024_d0 hR (parts m ρ c) _ (ix2 o h)).trans ?_
  refine congrArg₂ (· + ·) rfl (Finset.sum_congr rfl fun k _ => congrArg (parts m ρ c) (funext fun a => Fin.ext ?_))
  match a with
  | ⟨0, _⟩ => rfl
  | ⟨1, _⟩ => rfl
  | ⟨2, _⟩ => rfl

theorem blk1_2 (c : Dev nD) (t : Fin cfg1.N) (o : Fin 1024) :
    (iblk1 (V3 m ρ) c 2 t : Vec Ideal S1024 .f32) (ix1 o) = aG m c (ix1 o) := by
  have hi := idx1_2 t
  unfold iblk1
  rw [View.read_apply]
  show V3 m ρ c main_arg4 _ = _
  rw [V3_arg4]
  refine congrArg (m ((c : Thread nD τ).loc main_arg4)) (funext fun a => Fin.ext ?_)
  match a with
  | ⟨0, _⟩ => show win1_2.index t 0 * 1024 + 1 * o.val = o.val; rw [hi]; omega

end Cert.FastWeights.Blocks

end
-- ==== Proof.Cases.lean ====
/-
  What one run of the first region's body leaves in its two output buffers, as values of the tile's inputs.

  Whichever branch the body takes, the softmax buffer ends at the softmax of the tile's queries.  The memory buffer
  ends at the old contents plus the tile's share of the update; at the first tile of a half of the batch the body
  first overwrites the old contents with zeros, so there the old contents are zero.
-/
import proofs.«103471_j34668976013857_2_alg».proof.Proof.Gen.KernelIdeal.Frame
import Idealize.ShloMosaic.Lib.Pipeline.Value
import Idealize.ShloMosaic.Lib.Tactic
import Idealize.ShloMosaic.PureOps.Ideal

set_option maxRecDepth 16384

noncomputable section

open scoped BigOperators

namespace Cert.FastWeights.Cases

open Cert.KernelIdeal Cert.KernelIdeal.Gen Idealize.ShloMosaic Idealize.ShloMosaic.TcCoe Idealize.ShloMosaic.Tactic
open Idealize.SL.Sem Idealize.ShloMosaic.Pipeline

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- The tile's share of the update added to `old`, with the unit axis in front. -/
abbrev memAfter (x0 : Vec F S256x1024 .f32) (x1 x2 : Vec F S1024x1024 .bf16) (x4 : Vec F S1024x128 .bf16)
    (x5 x6 : Vec F S1024 .f32) (x8 : Vec F S128 .f32) (x9 : Vec F S1024x1024 .bf16) (x10 : Vec F S1024 .f32)
    (old : Vec F S1x1024x1024 .f32) : Vec F S1x1024x1024 .f32 :=
  k0_pay1 (k0_pay10 (k0_pay5 x0 x1 x5) (k0_pay6 x0 x2 x6) (k0_pay8 x0 x4 x8) x9 x10 old)

/-- The softmax of the tile's queries, in the output's float format. -/
abbrev smAfter (x0 : Vec F S256x1024 .f32) (x3 : Vec F S1024x1024 .bf16) (x7 : Vec F S1024 .f32) : Vec F S256x1024 .bf16 :=
  k0_pay2 (k0_pay9 (k0_pay7 x0 x3 x7))

/-- Not the first tile: the memory buffer holding `xo` ends at `xo` plus the tile's share. -/
theorem out_B_11 (c : Dev nD) (i : grid0.Coords) (a2 : Memref sig .tc .vmem S256x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x128 .bf16) (h6 : a6.IsWhole) (a7 : Memref sig .tc .vmem S1024 .f32) (h7 : a7.IsWhole) (a8 : Memref sig .tc .vmem S1024 .f32) (h8 : a8.IsWhole) (a9 : Memref sig .tc .vmem S1024 .f32) (h9 : a9.IsWhole) (a10 : Memref sig .tc .vmem S128 .f32) (h10 : a10.IsWhole) (a11 : Memref sig .tc .vmem S1024x1024 .bf16) (h11 : a11.IsWhole) (a12 : Memref sig .tc .vmem S1024 .f32) (h12 : a12.IsWhole) (a13 : Memref sig .tc .vmem S1x1024x1024 .f32) (h13 : a13.IsWhole) (a14 : Memref sig .tc .vmem S256x1024 .bf16) (h14 : a14.IsWhole) (hc : ¬cond0_0 i)
    (x0 : Vec F S256x1024 .f32) (x1 : Vec F S1024x1024 .bf16) (x2 : Vec F S1024x1024 .bf16) (x3 : Vec F S1024x1024 .bf16) (x4 : Vec F S1024x128 .bf16) (x5 : Vec F S1024 .f32) (x6 : Vec F S1024 .f32) (x7 : Vec F S1024 .f32) (x8 : Vec F S128 .f32) (x9 : Vec F S1024x1024 .bf16) (x10 : Vec F S1024 .f32) (xo : Vec F S1x1024x1024 .f32) :
    out0_B_11 c i a2 h2 a3 h3 a4 h4 a5 h5 a6 h6 a7 h7 a8 h8 a9 h9 a10 h10 a11 h11 a12 h12 a13 h13 a14 h14 hc x0 x1 x2 x3 x4 x5 x6 x7 x8 x9 x10 xo = memAfter x0 x1 x2 x4 x5 x6 x8 x9 x10 xo := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 hc x0 x1 x2 x3 x4 x5 x6 x7 x8 x9 x10 xo)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz2, View.ld_unit_zero (S := S1024x1024) hz2,
    View.ld_unit_zero (S := S1024x128) hz2, View.ld_unit_zero (S := S1024) hz1, View.ld_unit_zero (S := S128) hz1,
    View.ld_unit_zero (S := S1x1024x1024) hz3]

theorem out_B_12 (c : Dev nD) (i : grid0.Coords) (a2 : Memref sig .tc .vmem S256x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x128 .bf16) (h6 : a6.IsWhole) (a7 : Memref sig .tc .vmem S1024 .f32) (h7 : a7.IsWhole) (a8 : Memref sig .tc .vmem S1024 .f32) (h8 : a8.IsWhole) (a9 : Memref sig .tc .vmem S1024 .f32) (h9 : a9.IsWhole) (a10 : Memref sig .tc .vmem S128 .f32) (h10 : a10.IsWhole) (a11 : Memref sig .tc .vmem S1024x1024 .bf16) (h11 : a11.IsWhole) (a12 : Memref sig .tc .vmem S1024 .f32) (h12 : a12.IsWhole) (a13 : Memref sig .tc .vmem S1x1024x1024 .f32) (h13 : a13.IsWhole) (a14 : Memref sig .tc .vmem S256x1024 .bf16) (h14 : a14.IsWhole) (hc : ¬cond0_0 i)
    (x0 : Vec F S256x1024 .f32) (x1 : Vec F S1024x1024 .bf16) (x2 : Vec F S1024x1024 .bf16) (x3 : Vec F S1024x1024 .bf16) (x4 : Vec F S1024x128 .bf16) (x5 : Vec F S1024 .f32) (x6 : Vec F S1024 .f32) (x7 : Vec F S1024 .f32) (x8 : Vec F S128 .f32) (x9 : Vec F S1024x1024 .bf16) (x10 : Vec F S1024 .f32) (xo : Vec F S1x1024x1024 .f32) :
    out0_B_12 c i a2 h2 a3 h3 a4 h4 a5 h5 a6 h6 a7 h7 a8 h8 a9 h9 a10 h10 a11 h11 a12 h12 a13 h13 a14 h14 hc x0 x1 x2 x3 x4 x5 x6 x7 x8 x9 x10 xo = smAfter x0 x3 x7 := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 hc x0 x1 x2 x3 x4 x5 x6 x7 x8 x9 x10 xo)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz2, View.ld_unit_zero (S := S1024x1024) hz2,
    View.ld_unit_zero (S := S1024) hz1]

/-- The first tile of a half: the memory buffer is zeroed first, so it ends at zero plus the tile's share. -/
theorem out_A_11 (c : Dev nD) (i : grid0.Coords) (a2 : Memref sig .tc .vmem S256x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x128 .bf16) (h6 : a6.IsWhole) (a7 : Memref sig .tc .vmem S1024 .f32) (h7 : a7.IsWhole) (a8 : Memref sig .tc .vmem S1024 .f32) (h8 : a8.IsWhole) (a9 : Memref sig .tc .vmem S1024 .f32) (h9 : a9.IsWhole) (a10 : Memref sig .tc .vmem S128 .f32) (h10 : a10.IsWhole) (a11 : Memref sig .tc .vmem S1024x1024 .bf16) (h11 : a11.IsWhole) (a12 : Memref sig .tc .vmem S1024 .f32) (h12 : a12.IsWhole) (a13 : Memref sig .tc .vmem S1x1024x1024 .f32) (h13 : a13.IsWhole) (a14 : Memref sig .tc .vmem S256x1024 .bf16) (h14 : a14.IsWhole) (hc : cond0_0 i)
    (x0 : Vec F S256x1024 .f32) (x1 : Vec F S1024x1024 .bf16) (x2 : Vec F S1024x1024 .bf16) (x3 : Vec F S1024x1024 .bf16) (x4 : Vec F S1024x128 .bf16) (x5 : Vec F S1024 .f32) (x6 : Vec F S1024 .f32) (x7 : Vec F S1024 .f32) (x8 : Vec F S128 .f32) (x9 : Vec F S1024x1024 .bf16) (x10 : Vec F S1024 .f32) :
    out0_A_11 c i a2 h2 a3 h3 a4 h4 a5 h5 a6 h6 a7 h7 a8 h8 a9 h9 a10 h10 a11 h11 a12 h12 a13 h13 a14 h14 hc x0 x1 x2 x3 x4 x5 x6 x7 x8 x9 x10 = memAfter x0 x1 x2 x4 x5 x6 x8 x9 x10 k0_pay3 := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 hc x0 x1 x2 x3 x4 x5 x6 x7 x8 x9 x10)]
  unfold kernelRun0_A
  dsimp only
  sl_unfold_words
  rw [View.canon_cons_unit_zero (S := S1x1024x1024) hz3, View.readCov_unit_zero (S := S1x1024x1024) _ hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz2, View.ld_unit_zero (S := S1024x1024) hz2,
    View.ld_unit_zero (S := S1024x128) hz2, View.ld_unit_zero (S := S1024) hz1, View.ld_unit_zero (S := S128) hz1]

theorem out_A_12 (c : Dev nD) (i : grid0.Coords) (a2 : Memref sig .tc .vmem S256x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x128 .bf16) (h6 : a6.IsWhole) (a7 : Memref sig .tc .vmem S1024 .f32) (h7 : a7.IsWhole) (a8 : Memref sig .tc .vmem S1024 .f32) (h8 : a8.IsWhole) (a9 : Memref sig .tc .vmem S1024 .f32) (h9 : a9.IsWhole) (a10 : Memref sig .tc .vmem S128 .f32) (h10 : a10.IsWhole) (a11 : Memref sig .tc .vmem S1024x1024 .bf16) (h11 : a11.IsWhole) (a12 : Memref sig .tc .vmem S1024 .f32) (h12 : a12.IsWhole) (a13 : Memref sig .tc .vmem S1x1024x1024 .f32) (h13 : a13.IsWhole) (a14 : Memref sig .tc .vmem S256x1024 .bf16) (h14 : a14.IsWhole) (hc : cond0_0 i)
    (x0 : Vec F S256x1024 .f32) (x1 : Vec F S1024x1024 .bf16) (x2 : Vec F S1024x1024 .bf16) (x3 : Vec F S1024x1024 .bf16) (x4 : Vec F S1024x128 .bf16) (x5 : Vec F S1024 .f32) (x6 : Vec F S1024 .f32) (x7 : Vec F S1024 .f32) (x8 : Vec F S128 .f32) (x9 : Vec F S1024x1024 .bf16) (x10 : Vec F S1024 .f32) :
    out0_A_12 c i a2 h2 a3 h3 a4 h4 a5 h5 a6 h6 a7 h7 a8 h8 a9 h9 a10 h10 a11 h11 a12 h12 a13 h13 a14 h14 hc x0 x1 x2 x3 x4 x5 x6 x7 x8 x9 x10 = smAfter x0 x3 x7 := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 hc x0 x1 x2 x3 x4 x5 x6 x7 x8 x9 x10)]
  unfold kernelRun0_A
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz2, View.ld_unit_zero (S := S1024x1024) hz2,
    View.ld_unit_zero (S := S1024) hz1]

/-! ## At a grid point of the first region, for any contents the region finds -/

section AtPoint

variable (V : (c : Dev nD) → (b : Ref sig .tc) → Buf (Elt F) ((c : Thread nD τ).loc b))

/-- The softmax buffer after point t, whichever branch the body took. -/
theorem sm_at (c : Dev nD) (t : Fin cfg0.N) :
    (outsAt0 V c t.val t.isLt).2 = smAfter (iblk0 V c 0 t) (iblk0 V c 3 t) (iblk0 V c 7 t) := by
  by_cases h0 : t.val % 32 = 0
  · rw [outsAt0_A V c t h0]
    dsimp only
    exact out_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  · rw [outsAt0_B V c t h0]
    dsimp only
    exact out_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _

/-- The memory buffer after the first tile of a half: zero plus the tile's share. -/
theorem mem_reset (c : Dev nD) (n : Nat) (hn : n < cfg0.N) (h0 : n % 32 = 0) :
    (outsAt0 V c n hn).1 = memAfter (iblk0 V c 0 ⟨n, hn⟩) (iblk0 V c 1 ⟨n, hn⟩) (iblk0 V c 2 ⟨n, hn⟩) (iblk0 V c 4 ⟨n, hn⟩) (iblk0 V c 5 ⟨n, hn⟩) (iblk0 V c 6 ⟨n, hn⟩) (iblk0 V c 8 ⟨n, hn⟩) (iblk0 V c 9 ⟨n, hn⟩) (iblk0 V c 10 ⟨n, hn⟩) k0_pay3 := by
  have e := outsAt0_A V c ⟨n, hn⟩ h0
  dsimp only at e
  rw [e]
  dsimp only
  exact out_A_11 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) ((hcond0_0 ⟨n, hn⟩).mpr h0) (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩) (iblk0 V c 6 ⟨n, hn⟩) (iblk0 V c 7 ⟨n, hn⟩) (iblk0 V c 8 ⟨n, hn⟩) (iblk0 V c 9 ⟨n, hn⟩) (iblk0 V c 10 ⟨n, hn⟩)

/-- The memory buffer after any other tile: what the tile before left plus the tile's share. -/
theorem mem_step (c : Dev nD) (n : Nat) (hn : n + 1 < cfg0.N) (h0 : ¬(n + 1) % 32 = 0) :
    (outsAt0 V c (n + 1) hn).1
      = memAfter (iblk0 V c 0 ⟨n + 1, hn⟩) (iblk0 V c 1 ⟨n + 1, hn⟩) (iblk0 V c 2 ⟨n + 1, hn⟩) (iblk0 V c 4 ⟨n + 1, hn⟩) (iblk0 V c 5 ⟨n + 1, hn⟩) (iblk0 V c 6 ⟨n + 1, hn⟩) (iblk0 V c 8 ⟨n + 1, hn⟩) (iblk0 V c 9 ⟨n + 1, hn⟩) (iblk0 V c 10 ⟨n + 1, hn⟩) (outsAt0 V c n (Nat.lt_of_succ_lt hn)).1 := by
  have e := outsAt0_B V c ⟨n + 1, hn⟩ h0
  dsimp only at e
  rw [e]
  dsimp only
  exact out_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (outsAt0 V c n (Nat.lt_of_succ_lt hn)).1

end AtPoint

/-! ## The running memory over a half of the batch, on the extended reals -/

section Running

variable (V : (c : Dev nD) → (b : Ref sig .tc) → Buf (Elt Ideal) ((c : Thread nD τ).loc b))

/-- If the first tile of a half leaves zero plus its addend and every other tile adds its addend to what it found, then
    after the last tile of a half (point t with t mod 32 = 31) the memory buffer holds zero plus the half's 32 addends. -/
theorem mem_last (c : Dev nD) (M : Nat → S1x1024x1024.Idx → EReal)
    (hreset : ∀ (n : Nat) (hn : n < cfg0.N) (i : S1x1024x1024.Idx),
      memAfter (F := Ideal) (iblk0 V c 0 ⟨n, hn⟩) (iblk0 V c 1 ⟨n, hn⟩) (iblk0 V c 2 ⟨n, hn⟩) (iblk0 V c 4 ⟨n, hn⟩) (iblk0 V c 5 ⟨n, hn⟩) (iblk0 V c 6 ⟨n, hn⟩) (iblk0 V c 8 ⟨n, hn⟩) (iblk0 V c 9 ⟨n, hn⟩) (iblk0 V c 10 ⟨n, hn⟩) (k0_pay3 (F := Ideal)) i = 0 + M n i)
    (hstep : ∀ (n : Nat) (hn : n < cfg0.N) (old : Vec Ideal S1x1024x1024 .f32) (i : S1x1024x1024.Idx),
      memAfter (F := Ideal) (iblk0 V c 0 ⟨n, hn⟩) (iblk0 V c 1 ⟨n, hn⟩) (iblk0 V c 2 ⟨n, hn⟩) (iblk0 V c 4 ⟨n, hn⟩) (iblk0 V c 5 ⟨n, hn⟩) (iblk0 V c 6 ⟨n, hn⟩) (iblk0 V c 8 ⟨n, hn⟩) (iblk0 V c 9 ⟨n, hn⟩) (iblk0 V c 10 ⟨n, hn⟩) old i = old i + M n i)
    (t : Fin cfg0.N) (hl : t.val % 32 = 31) (i : S1x1024x1024.Idx) :
    (outsAt0 V c t.val t.isLt).1 i = 0 + ∑ s ∈ Finset.range 32, M (32 * (t.val / 32) + s) i := by
  have h' : 32 * (t.val / 32) + t.val % 32 < cfg0.N := by have := t.isLt; omega
  have e := Pipeline.eq_accAt_of_mod (fun n hn => (outsAt0 V c n hn).1) 32
    (fun n hn => memAfter (F := Ideal) (iblk0 V c 0 ⟨n, hn⟩) (iblk0 V c 1 ⟨n, hn⟩) (iblk0 V c 2 ⟨n, hn⟩) (iblk0 V c 4 ⟨n, hn⟩) (iblk0 V c 5 ⟨n, hn⟩) (iblk0 V c 6 ⟨n, hn⟩) (iblk0 V c 8 ⟨n, hn⟩) (iblk0 V c 9 ⟨n, hn⟩) (iblk0 V c 10 ⟨n, hn⟩) (k0_pay3 (F := Ideal)))
    (fun n hn old => memAfter (F := Ideal) (iblk0 V c 0 ⟨n, hn⟩) (iblk0 V c 1 ⟨n, hn⟩) (iblk0 V c 2 ⟨n, hn⟩) (iblk0 V c 4 ⟨n, hn⟩) (iblk0 V c 5 ⟨n, hn⟩) (iblk0 V c 6 ⟨n, hn⟩) (iblk0 V c 8 ⟨n, hn⟩) (iblk0 V c 9 ⟨n, hn⟩) (iblk0 V c 10 ⟨n, hn⟩) old)
    (mem_reset V c) (mem_step V c) (by decide) t.val t.isLt h'
  rw [e]
  have key : ∀ (j : Nat) (hj : j = 31) (hb : 32 * (t.val / 32) + j < cfg0.N),
      Pipeline.accAt (fun n hn => memAfter (F := Ideal) (iblk0 V c 0 ⟨n, hn⟩) (iblk0 V c 1 ⟨n, hn⟩) (iblk0 V c 2 ⟨n, hn⟩) (iblk0 V c 4 ⟨n, hn⟩) (iblk0 V c 5 ⟨n, hn⟩) (iblk0 V c 6 ⟨n, hn⟩) (iblk0 V c 8 ⟨n, hn⟩) (iblk0 V c 9 ⟨n, hn⟩) (iblk0 V c 10 ⟨n, hn⟩) (k0_pay3 (F := Ideal)))
        (fun n hn old => memAfter (F := Ideal) (iblk0 V c 0 ⟨n, hn⟩) (iblk0 V c 1 ⟨n, hn⟩) (iblk0 V c 2 ⟨n, hn⟩) (iblk0 V c 4 ⟨n, hn⟩) (iblk0 V c 5 ⟨n, hn⟩) (iblk0 V c 6 ⟨n, hn⟩) (iblk0 V c 8 ⟨n, hn⟩) (iblk0 V c 9 ⟨n, hn⟩) (iblk0 V c 10 ⟨n, hn⟩) old) (32 * (t.val / 32)) j hb i
        = 0 + ∑ s ∈ Finset.range 32, M (32 * (t.val / 32) + s) i := by
    intro j hj hb
    subst hj
    exact Pipeline.accAt_add_apply _ _ (fun _ => (0 : EReal)) M (32 * (t.val / 32)) 31
      (fun hb' i' => hreset _ hb' i') (fun n hn old i' _ _ => hstep n hn old i') 31 le_rfl hb i
  exact key (t.val % 32) hl h'

end Running

end Cert.FastWeights.Cases

end
-- ==== Proof.Region0.lean ====
/-
  The first region's two output arrays after its last grid point, as functions of the program's arguments.

  Point t (t = 32 half + tile) works on rows 256 t … 256 t + 255 of the batch.  Its keys, values, queries and
  learning-rate logit are the slow projection's entries at those rows, so the softmax buffer it writes back is the
  softmax of those rows' queries: the 64 row blocks tile the softmax array.  The memory buffer is carried from point
  to point within a half: zeroed at tile 0, it grows by each tile's share, and is written back once, after tile 31;
  the partial update of a half is therefore zero plus the 32 tile sums, and the two halves' blocks tile the array.
-/
import proofs.«103471_j34668976013857_2_alg».proof.Proof.Spec
import proofs.«103471_j34668976013857_2_alg».proof.Proof.Body
import proofs.«103471_j34668976013857_2_alg».proof.Proof.Blocks
import proofs.«103471_j34668976013857_2_alg».proof.Proof.Cases
import proofs.«103471_j34668976013857_2_alg».proof.Proof.Gen.KernelIdeal.Frame
import Idealize.ShloMosaic.Lib.Pipeline.Value
import Idealize.ShloMosaic.Lib.ValueIdx

set_option maxRecDepth 16384

noncomputable section

open scoped BigOperators

namespace Cert.FastWeights.Region0

open Cert.KernelIdeal Cert.KernelIdeal.Gen Idealize.ShloMosaic Idealize.ShloMosaic.ValueIdx Idealize.ShloMosaic.TcCoe
open Idealize.SL.Sem Idealize.ShloMosaic.Pipeline Cert.FastWeights Cert.FastWeights.Blocks Cert.FastWeights.Cases

variable (m : (ℓ : Loc nD τ sig) → Buf (Elt Ideal) ℓ) (ρ : Dev nD → PrngReg)

/-! ## The tile at a point -/

/-- The eleven input blocks at point t, at their literal types. -/
abbrev bX (c : Dev nD) (t : Fin cfg0.N) : Vec Ideal S256x1024 .f32 := iblk0 (V1 m ρ) c 0 t
abbrev bK (c : Dev nD) (t : Fin cfg0.N) : Vec Ideal S1024x1024 .bf16 := iblk0 (V1 m ρ) c 1 t
abbrev bV (c : Dev nD) (t : Fin cfg0.N) : Vec Ideal S1024x1024 .bf16 := iblk0 (V1 m ρ) c 2 t
abbrev bQ (c : Dev nD) (t : Fin cfg0.N) : Vec Ideal S1024x1024 .bf16 := iblk0 (V1 m ρ) c 3 t
abbrev bL (c : Dev nD) (t : Fin cfg0.N) : Vec Ideal S1024x128 .bf16 := iblk0 (V1 m ρ) c 4 t
abbrev cK (c : Dev nD) (t : Fin cfg0.N) : Vec Ideal S1024 .f32 := iblk0 (V1 m ρ) c 5 t
abbrev cV (c : Dev nD) (t : Fin cfg0.N) : Vec Ideal S1024 .f32 := iblk0 (V1 m ρ) c 6 t
abbrev cQ (c : Dev nD) (t : Fin cfg0.N) : Vec Ideal S1024 .f32 := iblk0 (V1 m ρ) c 7 t
abbrev cL (c : Dev nD) (t : Fin cfg0.N) : Vec Ideal S128 .f32 := iblk0 (V1 m ρ) c 8 t
abbrev bF (c : Dev nD) (t : Fin cfg0.N) : Vec Ideal S1024x1024 .bf16 := iblk0 (V1 m ρ) c 9 t
abbrev cG (c : Dev nD) (t : Fin cfg0.N) : Vec Ideal S1024 .f32 := iblk0 (V1 m ρ) c 10 t

/-- Point t is tile (t mod 32) of half (t div 32). -/
def half (t : Fin cfg0.N) : Fin 2 := ⟨t.val / 32, by have h64 : cfg0.N = 64 := N_0; have := t.isLt; omega⟩
def tileOf (t : Fin cfg0.N) : Fin 32 := ⟨t.val % 32, by omega⟩

theorem row_eq (t : Fin cfg0.N) (r : Fin 256) : rowOf (half t) (tileOf t) r = row0 t r :=
  Fin.ext (by simp only [rowOf, row0, half, tileOf]; omega)

/-- The tile's keys, values, queries and logits are the slow projection at the tile's rows. -/
theorem keys_at (c : Dev nD) (t : Fin cfg0.N) (r : Fin 256) (j : Fin 1024) :
    k0_pay5 (F := Ideal) (bX m ρ c t) (bK m ρ c t) (cK m ρ c t) (ix2 r j)
      = slow (aX m c) (aW m c) (aB m c) (row0 t r) (colK j) := by
  refine (Body.pay5_apply _ _ _ r j).trans ?_
  unfold Body.lin slow
  rw [show cK m ρ c t (ix1 j) = aB m c (ix1 (colK j)) from blk0_5 m ρ c t j]
  refine congrArg (· + aB m c (ix1 (colK j))) (Finset.sum_congr rfl fun i _ => ?_)
  rw [show bX m ρ c t (ix2 r i) = aX m c (ix2 (row0 t r) i) from blk0_0 m ρ c t r i,
    show bK m ρ c t (ix2 i j) = aW m c (ix2 (colK j) i) from blk0_1 m ρ c t i j]

theorem values_at (c : Dev nD) (t : Fin cfg0.N) (r : Fin 256) (j : Fin 1024) :
    k0_pay6 (F := Ideal) (bX m ρ c t) (bV m ρ c t) (cV m ρ c t) (ix2 r j)
      = slow (aX m c) (aW m c) (aB m c) (row0 t r) (colV j) := by
  refine (Body.pay6_apply _ _ _ r j).trans ?_
  unfold Body.lin slow
  rw [show cV m ρ c t (ix1 j) = aB m c (ix1 (colV j)) from blk0_6 m ρ c t j]
  refine congrArg (· + aB m c (ix1 (colV j))) (Finset.sum_congr rfl fun i _ => ?_)
  rw [show bX m ρ c t (ix2 r i) = aX m c (ix2 (row0 t r) i) from blk0_0 m ρ c t r i,
    show bV m ρ c t (ix2 i j) = aW m c (ix2 (colV j) i) from blk0_2 m ρ c t i j]

theorem queries_at (c : Dev nD) (t : Fin cfg0.N) (r : Fin 256) (j : Fin 1024) :
    k0_pay7 (F := Ideal) (bX m ρ c t) (bQ m ρ c t) (cQ m ρ c t) (ix2 r j)
      = slow (aX m c) (aW m c) (aB m c) (row0 t r) (colQ j) := by
  refine (Body.pay7_apply _ _ _ r j).trans ?_
  unfold Body.lin slow
  rw [show cQ m ρ c t (ix1 j) = aB m c (ix1 (colQ j)) from blk0_7 m ρ c t j]
  refine congrArg (· + aB m c (ix1 (colQ j))) (Finset.sum_congr rfl fun i _ => ?_)
  rw [show bX m ρ c t (ix2 r i) = aX m c (ix2 (row0 t r) i) from blk0_0 m ρ c t r i,
    show bQ m ρ c t (ix2 i j) = aW m c (ix2 (colQ j) i) from blk0_3 m ρ c t i j]

theorem logit_at (c : Dev nD) (t : Fin cfg0.N) (r : Fin 256) :
    k0_pay8 (F := Ideal) (bX m ρ c t) (bL m ρ c t) (cL m ρ c t) (ix2 r (0 : Fin 128))
      = slow (aX m c) (aW m c) (aB m c) (row0 t r) colL := by
  refine (Body.pay8_apply _ _ _ r (0 : Fin 128)).trans ?_
  unfold Body.lin slow
  rw [show cL m ρ c t (ix1 (0 : Fin 128)) = aB m c (ix1 colL) from blk0_8 m ρ c t]
  refine congrArg (· + aB m c (ix1 colL)) (Finset.sum_congr rfl fun i _ => ?_)
  rw [show bX m ρ c t (ix2 r i) = aX m c (ix2 (row0 t r) i) from blk0_0 m ρ c t r i,
    show bL m ρ c t (ix2 i (0 : Fin 128)) = aW m c (ix2 colL i) from blk0_4 m ρ c t i]

/-- The memory buffer after the tile: the old contents plus the tile's sum of the specification. -/
theorem tile_apply (c : Dev nD) (t : Fin cfg0.N) (old : Vec Ideal S1x1024x1024 .f32) (o h : Fin 1024) :
    memAfter (F := Ideal) (bX m ρ c t) (bK m ρ c t) (bV m ρ c t) (bL m ρ c t) (cK m ρ c t) (cV m ρ c t) (cL m ρ c t) (bF m ρ c t) (cG m ρ c t) old (ix3 (0 : Fin 1) o h)
      = old (ix3 (0 : Fin 1) o h) + tileSum (aX m c) (aW m c) (aB m c) (aF m c) (aG m c) o h (half t) (tileOf t) := by
  refine (Body.pay1_apply _ o h).trans ?_
  refine (Body.pay10_apply _ _ _ _ _ old o h).trans ?_
  refine congrArg (old (ix3 (0 : Fin 1) o h) + ·) ?_
  unfold tileSum
  refine Finset.sum_congr rfl fun r _ => ?_
  rw [row_eq]
  have hk : (fun j => k0_pay5 (F := Ideal) (bX m ρ c t) (bK m ρ c t) (cK m ρ c t) (ix2 r j))
      = keys (aX m c) (aW m c) (aB m c) (row0 t r) := funext fun j => keys_at m ρ c t r j
  rw [hk, logit_at, values_at, keys_at]
  unfold term gate readOld
  rw [show cG m ρ c t (ix1 o) = aG m c (ix1 o) from blk0_10 m ρ c t o]
  have hs : ∀ h' : Fin 1024, (bF m ρ c t) (ix2 h' o) = aF m c (ix2 o h') := fun h' => blk0_9 m ρ c t h' o
  simp only [hs]

/-! ## The running memory's addends -/

/-- Point n's share of the update at an entry of the memory buffer (zero past the grid). -/
def addend (c : Dev nD) (n : Nat) (i : S1x1024x1024.Idx) : EReal :=
  if hn : n < cfg0.N then
    tileSum (aX m c) (aW m c) (aB m c) (aF m c) (aG m c) (i 1) (i 2) (half ⟨n, hn⟩) (tileOf ⟨n, hn⟩)
  else 0

/-- The memory buffer's first axis has one coordinate. -/
theorem unit_axis (i : S1x1024x1024.Idx) : i = ix3 (0 : Fin 1) (i 1) (i 2) := by
  have hz : ((i 0 : Fin 1) : Nat) < 1 := (i 0 : Fin 1).isLt
  funext a
  match a with
  | ⟨0, _⟩ => exact Fin.ext (by show ((i 0 : Fin 1) : Nat) = 0; omega)
  | ⟨1, _⟩ => rfl
  | ⟨2, _⟩ => rfl

theorem reset_apply (c : Dev nD) (n : Nat) (hn : n < cfg0.N) (i : S1x1024x1024.Idx) :
    memAfter (F := Ideal) (bX m ρ c ⟨n, hn⟩) (bK m ρ c ⟨n, hn⟩) (bV m ρ c ⟨n, hn⟩) (bL m ρ c ⟨n, hn⟩) (cK m ρ c ⟨n, hn⟩) (cV m ρ c ⟨n, hn⟩) (cL m ρ c ⟨n, hn⟩) (bF m ρ c ⟨n, hn⟩) (cG m ρ c ⟨n, hn⟩) (k0_pay3 (F := Ideal)) i = 0 + addend m c n i := by
  rw [unit_axis i]
  unfold addend
  rw [dif_pos hn]
  refine (tile_apply m ρ c ⟨n, hn⟩ (k0_pay3 (F := Ideal)) (i 1) (i 2)).trans ?_
  rw [Body.pay3_apply]

theorem step_apply (c : Dev nD) (n : Nat) (hn : n < cfg0.N) (old : Vec Ideal S1x1024x1024 .f32) (i : S1x1024x1024.Idx) :
    memAfter (F := Ideal) (bX m ρ c ⟨n, hn⟩) (bK m ρ c ⟨n, hn⟩) (bV m ρ c ⟨n, hn⟩) (bL m ρ c ⟨n, hn⟩) (cK m ρ c ⟨n, hn⟩) (cV m ρ c ⟨n, hn⟩) (cL m ρ c ⟨n, hn⟩) (bF m ρ c ⟨n, hn⟩) (cG m ρ c ⟨n, hn⟩) old i = old i + addend m c n i := by
  rw [unit_axis i]
  unfold addend
  rw [dif_pos hn]
  exact tile_apply m ρ c ⟨n, hn⟩ old (i 1) (i 2)

/-- After the last tile of a half the memory buffer holds zero plus the half's 32 tile sums. -/
theorem mem_last (c : Dev nD) (t : Fin cfg0.N) (hl : t.val % 32 = 31) (i : S1x1024x1024.Idx) :
    (outsAt0 (V1 m ρ) c t.val t.isLt).1 i = 0 + ∑ s ∈ Finset.range 32, addend m c (32 * (t.val / 32) + s) i :=
  Cases.mem_last (V1 m ρ) c (addend m c) (fun n hn i' => reset_apply m ρ c n hn i')
    (fun n hn old i' => step_apply m ρ c n hn old i') t hl i

/-! ## The softmax array -/

/-- The softmax of every row's queries. -/
def smqFn (c : Dev nD) : Vec Ideal S16384x1024 .bf16 := fun i =>
  softmax (queries (aX m c) (aW m c) (aB m c) (i 0)) (i 1)

theorem idx12 : ∀ t : Fin cfg0.N, win0_12.index t (0 : Fin 2) = t.val ∧ win0_12.index t (1 : Fin 2) = 0 :=
  (by decide +kernel : ∀ t : Fin grid0.N, _)

theorem flushed12_eq (c : Dev nD) (t : Fin cfg0.N) :
    (dat0 (V1 m ρ) c).flushed 12 t = ((cfg0.win 12).blk t).view.read (Elt Ideal) (smqFn m c) := by
  show (cfg0.win 12).cut (grid0.coords t) ((dat0 (V1 m ρ) c).after 12 t) = _
  rw [after0_12, Cases.sm_at (V1 m ρ) c t]
  obtain ⟨e0, e1⟩ := idx12 t
  funext j
  obtain ⟨rr, jj, rfl⟩ : ∃ (rr : Fin 256) (jj : Fin 1024), j = ix2 rr jj := ⟨j 0, j 1, eq_ix2 j⟩
  have he : ((cfg0.win 12).blk t).view.emb (ix2 rr jj) = ix2 (row0 t rr) jj := by
    funext a; apply Fin.ext
    match a with
    | ⟨0, _⟩ => show win0_12.index t (0 : Fin 2) * 256 + 1 * rr.val = t.val * 256 + rr.val; omega
    | ⟨1, _⟩ => show win0_12.index t (1 : Fin 2) * 1024 + 1 * jj.val = jj.val; omega
  show k0_pay2 (F := Ideal) (k0_pay9 (k0_pay7 (bX m ρ c t) (bQ m ρ c t) (cQ m ρ c t))) (ix2 rr jj)
      = smqFn m c (((cfg0.win 12).blk t).view.emb (ix2 rr jj))
  rw [he, Body.pay2_eq]
  refine (Body.pay9_apply _ rr jj).trans ?_
  show softmax _ jj = softmax (queries (aX m c) (aW m c) (aB m c) (row0 t rr)) jj
  exact congrArg (fun z => softmax z jj) (funext fun k => queries_at m ρ c t rr k)

theorem mem_blk12 (t : Fin cfg0.N) (i : S16384x1024.Idx) :
    i ∈ ((cfg0.win 12).blk t).view.set ↔ ∀ a : Fin 2, win0_12.index t a * S256x1024.size a ≤ (i a).val
      ∧ (i a).val < win0_12.index t a * S256x1024.size a + S256x1024.size a := by
  show i ∈ ((View.whole main_v22_1).slice (win0_12.rect t)).set ↔ _
  rw [View.set_slice_whole, Rect.mem_set_unit]
  exact Iff.rfl

theorem smq_final (c : Dev nD) : smq m ρ c = smqFn m c :=
  (dat0 (V1 m ρ) c).arrAt_eq_of_cover 12 (smqFn m c) (fun t _ => flushed12_eq m ρ c t) fun i => by
    have hN : cfg0.N = 64 := N_0
    have hi0 : (i 0).val < 16384 := (i 0).isLt
    have hi1 : (i 1).val < 1024 := (i 1).isLt
    let t : Fin cfg0.N := ⟨(i 0).val / 256, by omega⟩
    obtain ⟨e0, e1⟩ := idx12 t
    have ht : t.val = (i 0).val / 256 := rfl
    refine ⟨t, flush0_12 t, ?_⟩
    rw [mem_blk12]
    intro a
    match a with
    | ⟨0, _⟩ => show win0_12.index t (0 : Fin 2) * 256 ≤ (i 0).val ∧ (i 0).val < win0_12.index t (0 : Fin 2) * 256 + 256; omega
    | ⟨1, _⟩ => show win0_12.index t (1 : Fin 2) * 1024 ≤ (i 1).val ∧ (i 1).val < win0_12.index t (1 : Fin 2) * 1024 + 1024; omega

/-! ## The partial updates -/

/-- Half c' of the partial updates: zero plus its 32 tile sums. -/
def partsFn (c : Dev nD) : Vec Ideal S2x1024x1024 .f32 := fun i =>
  0 + ∑ s ∈ Finset.range 32, addend m c (32 * (i 0).val + s) (ix3 (0 : Fin 1) (i 1) (i 2))

theorem idx11 : ∀ t : Fin cfg0.N, win0_11.index t (0 : Fin 3) = t.val / 32 ∧ win0_11.index t (1 : Fin 3) = 0
    ∧ win0_11.index t (2 : Fin 3) = 0 :=
  (by decide +kernel : ∀ t : Fin grid0.N, _)

theorem flushed11_eq (c : Dev nD) (t : Fin cfg0.N) (hf : (cfg0.win 11).flush t = true) :
    (dat0 (V1 m ρ) c).flushed 11 t = ((cfg0.win 11).blk t).view.read (Elt Ideal) (partsFn m c) := by
  have hl : t.val % 32 = 31 := (flush0_11 t).mp hf
  show (cfg0.win 11).cut (grid0.coords t) ((dat0 (V1 m ρ) c).after 11 t) = _
  rw [after0_11]
  obtain ⟨e0, e1, e2⟩ := idx11 t
  funext j
  have hN : cfg0.N = 64 := N_0
  obtain ⟨z, o, h, rfl⟩ : ∃ (z : Fin 1) (o h : Fin 1024), j = ix3 z o h := ⟨j 0, j 1, j 2, eq_ix3 j⟩
  have hz : z = 0 := Fin.ext (by have := z.isLt; omega)
  subst hz
  have he : ((cfg0.win 11).blk t).view.emb (ix3 (0 : Fin 1) o h)
      = ix3 (⟨t.val / 32, by have := t.isLt; omega⟩ : Fin 2) o h := by
    funext a; apply Fin.ext
    match a with
    | ⟨0, _⟩ => show win0_11.index t (0 : Fin 3) * 1 + 1 * 0 = t.val / 32; omega
    | ⟨1, _⟩ => show win0_11.index t (1 : Fin 3) * 1024 + 1 * o.val = o.val; omega
    | ⟨2, _⟩ => show win0_11.index t (2 : Fin 3) * 1024 + 1 * h.val = h.val; omega
  show (outsAt0 (V1 m ρ) c t.val t.isLt).1 (ix3 (0 : Fin 1) o h)
      = partsFn m c (((cfg0.win 11).blk t).view.emb (ix3 (0 : Fin 1) o h))
  rw [he, mem_last m ρ c t hl]
  rfl

theorem mem_blk11 (t : Fin cfg0.N) (i : S2x1024x1024.Idx) :
    i ∈ ((cfg0.win 11).blk t).view.set ↔ ∀ a : Fin 3, win0_11.index t a * S1x1024x1024.size a ≤ (i a).val
      ∧ (i a).val < win0_11.index t a * S1x1024x1024.size a + S1x1024x1024.size a := by
  show i ∈ ((View.whole main_v22_0).slice (win0_11.rect t)).set ↔ _
  rw [View.set_slice_whole, Rect.mem_set_unit]
  exact Iff.rfl

theorem parts_final (c : Dev nD) : parts m ρ c = partsFn m c :=
  (dat0 (V1 m ρ) c).arrAt_eq_of_cover 11 (partsFn m c) (fun t hf => flushed11_eq m ρ c t hf) fun i => by
    have hN : cfg0.N = 64 := N_0
    have hi0 : (i 0).val < 2 := (i 0).isLt
    have hi1 : (i 1).val < 1024 := (i 1).isLt
    have hi2 : (i 2).val < 1024 := (i 2).isLt
    let t : Fin cfg0.N := ⟨32 * (i 0).val + 31, by omega⟩
    obtain ⟨e0, e1, e2⟩ := idx11 t
    have ht : t.val = 32 * (i 0).val + 31 := rfl
    refine ⟨t, (flush0_11 t).mpr (by omega), ?_⟩
    rw [mem_blk11]
    intro a
    match a with
    | ⟨0, _⟩ => show win0_11.index t (0 : Fin 3) * 1 ≤ (i 0).val ∧ (i 0).val < win0_11.index t (0 : Fin 3) * 1 + 1; omega
    | ⟨1, _⟩ => show win0_11.index t (1 : Fin 3) * 1024 ≤ (i 1).val ∧ (i 1).val < win0_11.index t (1 : Fin 3) * 1024 + 1024; omega
    | ⟨2, _⟩ => show win0_11.index t (2 : Fin 3) * 1024 ≤ (i 2).val ∧ (i 2).val < win0_11.index t (2 : Fin 3) * 1024 + 1024; omega

/-- Entry (o, h) of half c' of the partial updates is that half's 32 tile sums of the specification. -/
theorem partsFn_apply (c : Dev nD) (c' : Fin 2) (o h : Fin 1024) :
    partsFn m c (ix3 c' o h) = ∑ s : Fin 32, tileSum (aX m c) (aW m c) (aB m c) (aF m c) (aG m c) o h c' s := by
  unfold partsFn
  rw [zero_add, Finset.sum_range]
  refine Finset.sum_congr rfl fun s _ => ?_
  have hN : cfg0.N = 64 := N_0
  have hc' : c'.val < 2 := c'.isLt
  have hs : s.val < 32 := s.isLt
  have hn : 32 * c'.val + s.val < cfg0.N := by omega
  unfold addend
  rw [dif_pos hn]
  have e1 : half ⟨32 * c'.val + s.val, hn⟩ = c' := Fin.ext (by simp only [half]; omega)
  have e2 : tileOf ⟨32 * c'.val + s.val, hn⟩ = s := Fin.ext (by simp only [tileOf]; omega)
  rw [e1, e2]

/-- The memory the second region reads is the fast weights plus the kernel's update. -/
theorem newMem_eq (c : Dev nD) (o h : Fin 1024) (P : Vec Ideal S2x1024x1024 .f32) (hP : P = partsFn m c) :
    aF m c (ix2 o h) + (Ideal.ofBits .f32 0x00000000#32 + ∑ c' : Fin 2, P (ix3 c' o h))
      = aF m c (ix2 o h) + deltaKer (aX m c) (aW m c) (aB m c) (aF m c) (aG m c) o h := by
  subst hP
  rw [Ideal.ofBits_zero_f32, zero_add]
  unfold deltaKer
  exact congrArg (aF m c (ix2 o h) + ·) (Finset.sum_congr rfl fun c' _ => partsFn_apply m c c' o h)

end Cert.FastWeights.Region0

end
-- ==== Proof.Region1.lean ====
/-
  The second region's output array after its last grid point, as one function of what the region finds.

  Point t takes rows 512 t … 512 t + 511 of the softmax rows, multiplies them with the whole updated memory (transposed)
  and adds the bias: entry (r, o) of the result is  sum_h s(r, h) (F(o, h) + (0 + P_0(o, h) + P_1(o, h))) + g(o),
  whichever point wrote it.  The 32 row blocks tile the array, so the array ends holding that function everywhere.
-/
import proofs.«103471_j34668976013857_2_alg».proof.Proof.Spec
import proofs.«103471_j34668976013857_2_alg».proof.Proof.Body
import proofs.«103471_j34668976013857_2_alg».proof.Proof.Blocks
import proofs.«103471_j34668976013857_2_alg».proof.Proof.Gen.KernelIdeal.Frame
import Idealize.ShloMosaic.Lib.Pipeline.Value
import Idealize.ShloMosaic.Lib.ValueIdx

set_option maxRecDepth 16384

noncomputable section

open scoped BigOperators

namespace Cert.FastWeights.Region1

open Cert.KernelIdeal Cert.KernelIdeal.Gen Idealize.ShloMosaic Idealize.ShloMosaic.ValueIdx Idealize.ShloMosaic.TcCoe
open Idealize.SL.Sem Idealize.ShloMosaic.Pipeline Cert.FastWeights Cert.FastWeights.Blocks

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The memory the second region reads: the fast weights plus the two partial updates, added from zero. -/
def newMem (c : Dev nD) (o h : Fin 1024) : EReal :=
  aF m c (ix2 o h) + (Ideal.ofBits .f32 0x00000000#32 + ∑ c' : Fin 2, parts m ρ c (ix3 c' o h))

/-- The result array: entry (r, o) reads the new memory with row r of the softmax rows. -/
def out (c : Dev nD) : Vec Ideal S16384x1024 .f32 := fun i =>
  ∑ h : Fin 1024, smq m ρ c (ix2 (i 0) h) * newMem m ρ c (i 1) h + aG m c (ix1 (i 1))

/-- The printed index maps over the grid: the row block moves with the point, the column block stays. -/
theorem idx_rows : ∀ t : Fin cfg1.N, win1_3.index t (0 : Fin 2) = t.val ∧ win1_3.index t (1 : Fin 2) = 0 :=
  (by decide +kernel : ∀ t : Fin grid1.N, _)

/-- What point t writes back is block t of the result array. -/
theorem flushed_eq (c : Dev nD) (t : Fin cfg1.N) :
    (dat1 (V3 m ρ) c).flushed 3 t = ((cfg1.win 3).blk t).view.read (Elt Ideal) (out m ρ c) := by
  show (cfg1.win 3).cut (grid1.coords t) ((dat1 (V3 m ρ) c).after 3 t) = _
  rw [after1_3]
  unfold out1_3
  rw [View.canon_unit_zero hz2]
  simp only [View.ld_unit_zero (S := S512x1024) hz2, View.ld_unit_zero (S := S1024x1024) hz2, View.ld_unit_zero (S := S1024) hz1]
  obtain ⟨e0, e1⟩ := idx_rows t
  funext j
  obtain ⟨rr, o, rfl⟩ : ∃ (rr : Fin 512) (o : Fin 1024), j = ix2 rr o := ⟨j 0, j 1, eq_ix2 j⟩
  have he : ((cfg1.win 3).blk t).view.emb (ix2 rr o) = ix2 (row1 t rr) o := by
    funext a; apply Fin.ext
    match a with
    | ⟨0, _⟩ => show win1_3.index t (0 : Fin 2) * 512 + 1 * rr.val = t.val * 512 + rr.val; omega
    | ⟨1, _⟩ => show win1_3.index t (1 : Fin 2) * 1024 + 1 * o.val = o.val; omega
  show k1_pay1 (F := Ideal) (iblk1 (V3 m ρ) c 0 t) (iblk1 (V3 m ρ) c 1 t) (iblk1 (V3 m ρ) c 2 t) (ix2 rr o)
      = out m ρ c (((cfg1.win 3).blk t).view.emb (ix2 rr o))
  rw [he]
  refine (Body.k1_pay1_apply _ _ _ rr o).trans ?_
  unfold Body.lin out
  rw [blk1_2]
  refine congrArg (· + aG m c (ix1 o)) (Finset.sum_congr rfl fun i _ => ?_)
  rw [blk1_0, blk1_1]
  rfl

/-- An index of the array is in point t's block iff each coordinate is in the block's range on its axis. -/
theorem mem_blk (t : Fin cfg1.N) (i : S16384x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v27).slice (win1_3.rect t)).set ↔ _
  rw [View.set_slice_whole, Rect.mem_set_unit]
  exact Iff.rfl

/-- The result array after the run. -/
theorem final (c : Dev nD) : (dat1 (V3 m ρ) c).arrAt 3 cfg1.N = out m ρ c :=
  (dat1 (V3 m ρ) c).arrAt_eq_of_cover 3 (out m ρ c) (fun t _ => flushed_eq m ρ c t) fun i => by
    have hN : cfg1.N = 32 := N_1
    have hi0 : (i 0).val < 16384 := (i 0).isLt
    have hi1 : (i 1).val < 1024 := (i 1).isLt
    let t : Fin cfg1.N := ⟨(i 0).val / 512, by omega⟩
    obtain ⟨e0, e1⟩ := idx_rows t
    have ht : t.val = (i 0).val / 512 := rfl
    refine ⟨t, flush1_3 t, ?_⟩
    rw [mem_blk]
    intro a
    match a with
    | ⟨0, _⟩ => show win1_3.index t (0 : Fin 2) * 512 ≤ (i 0).val ∧ (i 0).val < win1_3.index t (0 : Fin 2) * 512 + 512; omega
    | ⟨1, _⟩ => show win1_3.index t (1 : Fin 2) * 1024 ≤ (i 1).val ∧ (i 1).val < win1_3.index t (1 : Fin 2) * 1024 + 1024; omega

end Cert.FastWeights.Region1

end
-- ==== Proof.lean ====
/-
  The claim: a fast-weight memory update, computed two ways, gives the same result on the extended reals.

  For a batch of 16384 rows x_r, slow weights W with bias b, fast weights F with bias g, both programs compute
      out_r = (F + delta) softmax(q_r) + g,      delta = sum_r sigmoid(l_r) (v_r - (F softmax(k_r) + g)) sigmoid(k_r)^T / 16384,
  where k_r, v_r, q_r, l_r are the four column groups of the slow projection W x_r + b.  The reference takes the sum over
  the whole batch and divides it by 16384.  The kernel program works on tiles of 256 rows: each tile multiplies its
  rows' terms by 2^-14 before summing them into a running memory that is zeroed at the first tile of each half of the
  batch; the two halves are added (from zero) to F, and a second pass reads the new memory with the softmax of the
  queries, 512 rows at a time.  Changes of float format are the identity on the extended reals, a matrix product is the
  plain sum over the contracted axis on both sides, and the sigmoid is 1 / (1 + exp(-z)) on both sides.  What joins the
  two is that multiplication by the nonnegative finite constant 2^-14 = 1/16384 distributes over sums of extended reals
  and that sums may be regrouped freely there; no finiteness of the inputs is used.

  Specification and the law: Proof/Spec.lean.  The reference's result read entry by entry: Proof/RefValue.lean.  The
  kernel bodies' arithmetic at an entry: Proof/Body.lean; what each window reads: Proof/Blocks.lean; what a run of the
  first body leaves: Proof/Cases.lean; the first region's two arrays: Proof/Region0.lean; the result array:
  Proof/Region1.lean; the kernel program's run with its result named: Proof/Run.lean.
-/
import proofs.«103471_j34668976013857_2_alg».proof.Defs
import proofs.«103471_j34668976013857_2_alg».proof.Proof.Gen.Kernel
import proofs.«103471_j34668976013857_2_alg».proof.Proof.Gen.Kernel.Skeleton
import proofs.«103471_j34668976013857_2_alg».proof.Proof.Gen.Kernel.Launch
import proofs.«103471_j34668976013857_2_alg».proof.Proof.Gen.Kernel.Points
import proofs.«103471_j34668976013857_2_alg».proof.Proof.Gen.Kernel.Frame
import proofs.«103471_j34668976013857_2_alg».proof.Proof.Gen.KernelIdeal
import proofs.«103471_j34668976013857_2_alg».proof.Proof.Gen.KernelIdeal.Skeleton
import proofs.«103471_j34668976013857_2_alg».proof.Proof.Gen.KernelIdeal.Launch
import proofs.«103471_j34668976013857_2_alg».proof.Proof.Gen.KernelIdeal.Points
import proofs.«103471_j34668976013857_2_alg».proof.Proof.Gen.KernelIdeal.Frame
import proofs.«103471_j34668976013857_2_alg».proof.Proof.Gen.ReferenceIdeal
import proofs.«103471_j34668976013857_2_alg».proof.Proof.Gen.Pre_finite_inputs
import proofs.«103471_j34668976013857_2_alg».proof.Proof.Gen.ReferenceIdeal.Run
import proofs.«103471_j34668976013857_2_alg».proof.Proof.Gen.ReferenceIdeal.Read
import proofs.«103471_j34668976013857_2_alg».proof.Proof.Spec
import proofs.«103471_j34668976013857_2_alg».proof.Proof.RefValue
import proofs.«103471_j34668976013857_2_alg».proof.Proof.Run
import proofs.«103471_j34668976013857_2_alg».proof.Proof.Region0
import proofs.«103471_j34668976013857_2_alg».proof.Proof.Region1
import Idealize.ShloMosaic.Adequacy
import Idealize.ShloMosaic.Init

noncomputable section

namespace Cert.Proof

open Idealize.ShloMosaic Idealize.SL.Sem Idealize.ShloMosaic.ValueIdx Idealize.ShloMosaic.TcCoe Cert.FastWeights

/-- The array both programs end at: entry (r, o) reads the memory F + delta with row r's queries. -/
def answer (x : AX) (w : AW) (b : AB) (f : AF) (g : AG) : (⟨2, ![16384, 1024]⟩ : Shape).Idx → EReal := fun i =>
  result (deltaKer x w b f g) x w b f g (i 0) (i 1)

/-- The kernel program's result array is the answer at its arguments. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.dat1 (Cert.KernelIdeal.Gen.V3 m ρ) c).arrAt 3 Cert.KernelIdeal.cfg1.N
      = answer (Blocks.aX m c) (Blocks.aW m c) (Blocks.aB m c) (Blocks.aF m c) (Blocks.aG m c) := by
  rw [Region1.final]
  funext i
  unfold Region1.out answer result
  rw [Region0.smq_final]
  unfold Region0.smqFn Region1.newMem
  refine congrArg (· + Blocks.aG m c (ix1 (i 1))) (Finset.sum_congr rfl fun h _ => ?_)
  exact congrArg (softmax (queries (Blocks.aX m c) (Blocks.aW m c) (Blocks.aB m c) (i 0)) h * ·)
    (Region0.newMem_eq m c (i 1) h (Blocks.parts m ρ c) (Region0.parts_final m ρ c))

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the answer of the arguments they agree on. -/
theorem algebraic : Cert.algebraic_KernelIdeal_ReferenceIdeal := by
  intro m ρ m' ρ' _ hagree
  refine ⟨fun c => answer (Blocks.aX m c) (Blocks.aW m c) (Blocks.aB m c) (Blocks.aF m c) (Blocks.aG m c), ?_, ?_⟩
  · exact (θ_run Cert.KernelIdeal.defs _ _).mono (fun r h c => ⟨(h c).1.trans (kernel_value m ρ c), (h c).2⟩)
      (Cert.FastWeights.Run.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v59_eq, (hagree c).1, (hagree c).2.1, (hagree c).2.2.1, (hagree c).2.2.2.1,
      (hagree c).2.2.2.2]
    funext i
    obtain ⟨r, o, rfl⟩ : ∃ (r : Fin 16384) (o : Fin 1024), i = ix2 r o := ⟨i 0, i 1, eq_ix2 i⟩
    refine (Ref.ref_apply _ _ _ _ _ r o).trans ?_
    exact congrArg (fun δ => result δ (Blocks.aX m c) (Blocks.aW m c) (Blocks.aB m c) (Blocks.aF m c) (Blocks.aG m c) r o)
      (funext fun o' => funext fun h' => (deltaKer_eq (Blocks.aX m c) (Blocks.aW m c) (Blocks.aB m c) (Blocks.aF m c)
        (Blocks.aG m c) o' h').symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
